-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S4x2048x1024, .f32⟩
  | .hbm, ⟨14, _⟩ => ⟨S4x2048x1024, .f32⟩
  | .local _ .vmem, ⟨0, _⟩ => ⟨S1x2048x1024, .f32⟩
  | .local _ .vmem, ⟨1, _⟩ => ⟨S1024x1024, .bf16⟩
  | .local _ .vmem, ⟨2, _⟩ => ⟨S1024, .f32⟩
  | .local _ .vmem, ⟨3, _⟩ => ⟨S1024x1024, .bf16⟩
  | .local _ .vmem, ⟨4, _⟩ => ⟨S1024, .f32⟩
  | .local _ .vmem, ⟨5, _⟩ => ⟨S1024x1024, .bf16⟩
  | .local _ .vmem, ⟨6, _⟩ => ⟨S1024, .f32⟩
  | .local _ .vmem, ⟨7, _⟩ => ⟨S1x256x1024, .f32⟩
  | .local _ .vmem, ⟨8, _⟩ => ⟨S1x256x1024, .f32⟩
  | .local _ .vmem, ⟨9, _⟩ => ⟨S1x2048x1024, .f32⟩
  | .local _ .vmem, ⟨10, _⟩ => ⟨S2048x1024, .bf16⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

class Facts₀ : Prop where
  transposes_S1024x1024_S1024x1024_1_0 : S1024x1024.Transposes [1, 0] S1024x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x256x1024 : 0 < S1x256x1024.numel
  shapeCasts_S1x256x1024_S256x1024 : S1x256x1024.ShapeCasts S256x1024
  broadcasts_S1x1024_S256x1024 : S1x1024.Broadcasts S256x1024
  reduces_S256x2048_S256 : S256x2048.Reduces [1] S256
  shapeCasts_S256_S256x1 : S256.ShapeCasts S256x1
  broadcasts_S256x1_S256x2048 : S256x1.Broadcasts S256x2048
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S2048x1024_S1024x1024_S2048x1024_1_0_0_1_n_n_wf : DotDims.WF S2048x1024 S1024x1024 S2048x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x2048_S256x1024_S2048x1024_0_0_1_1_n_n_wf : DotDims.WF S256x2048 S256x1024 S2048x1024 [0] [0] [1] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S4x2048x1024.size a
  hwx0_7 : ∀ i : grid0.Coords, EltTy.bits .f32 = 32 ∨ (Rect.block (s := S4x2048x1024) S1x256x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048x1024.size a ≤ S4x2048x1024.size a
  hwx0_8 : ∀ i : grid0.Coords, EltTy.bits .f32 = 32 ∨ (Rect.block (s := S4x2048x1024) S1x2048x1024.size (cc0_transform_8 i) (hinb0_8 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x2048_S256x1024_S2048x1024_0_0_1_1_n_n : DotDims S256x2048 S256x1024 S2048x1024 where
  lhsContracting := [0]
  rhsContracting := [0]
  lhsNonContracting := [1]
  rhsNonContracting := [1]
  lhsBatch := []
  rhsBatch := []
  wf := dot_S256x2048_S256x1024_S2048x1024_0_0_1_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x2048x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x2048_S4x2048x1024_S4x2048x1024_1_1_2_2_0_0_wf : DotDims.WF S4x2048x2048 S4x2048x1024 S4x2048x1024 [1] [1] [2] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x2048_S4x2048x1024_S4x2048x1024_1_1_2_2_0_0 : DotDims S4x2048x2048 S4x2048x1024 S4x2048x1024 where
  lhsContracting := [1]
  rhsContracting := [1]
  lhsNonContracting := [2]
  rhsNonContracting := [2]
  lhsBatch := [0]
  rhsBatch := [0]
  wf := dot_S4x2048x2048_S4x2048x1024_S4x2048x1024_1_1_2_2_0_0_wf

class Facts : Prop extends Facts₀ where

variable [Facts]
-- ==== Proof.Found.lean ====
/-
  What the kernel body leaves behind at one grid point, as values.

  At a point that starts a batch (query tile 0) the body projects the whole batch block to keys and values,
  stores them in the two carried buffers, zeroes the text accumulator, and then does what every point does.
  At every point it takes the query tile (256 rows of the batch block), forms the softmax rows of the scaled
  query tile against the carried keys, writes the tile of the first result (softmax rows times the carried
  values), and adds softmax-rows-transposed times the query tile into the text accumulator.
  Each lemma below says which of the body's pure terms a buffer holds afterwards, for arbitrary contents of
  the input blocks; they hold for any reading of the floats.
-/
import proofs.«132548_j70738111365466_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The query tile of a batch block: its rows `256·qi, …, 256·qi + 255`, where `qi` is the point's second coordinate. -/
def tile (i : grid0.Coords) (x0 : Vec F S1x2048x1024 .f32) : Vec F S1x256x1024 .f32 :=
  View.ld x0 (Rect.unit (s := S1x2048x1024) (k0_off1 i) S1x256x1024.size (k0_off1_inb i))

/-- The first result's tile at a later point of a batch: softmax rows (of the tile against the carried keys `xs0`)
    times the carried values `xs1`. -/
theorem later_out1 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (hc0 : ¬cond0_0 i)
    (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) (xo8 : Vec F S1x2048x1024 .f32) (xs0 : Vec F S2048x1024 .bf16) (xs1 : Vec F S2048x1024 .bf16) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1 = k0_pay8 (tile i x0) x1 x2 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1)]
  unfold kernelRun0_B
  dsimp only
  sl_unfold_words
  rw [View.canon_unit_zero hz3]
  simp only [View.readAt_eq_ld, harg2.read_unread, harg3.read_unread, harg4.read_unread, harg11.read_unread, harg12.read_unread,
    View.ld_unit_zero (S := S1024x1024) hz2, View.ld_unit_zero (S := S1024) hz1, View.ld_unit_zero (S := S2048x1024) hz2]
  rfl

/-- The text accumulator at a later point of a batch: what the point before left (`xo8`) plus softmax rows
    transposed times the query tile. -/
theorem later_acc (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (hc0 : ¬cond0_0 i)
    (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) (xo8 : Vec F S1x2048x1024 .f32) (xs0 : Vec F S2048x1024 .bf16) (xs1 : Vec F S2048x1024 .bf16) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1
      = k0_pay1 (k0_pay6 (tile i x0)) (k0_pay7 (tile i x0) x1 x2 xs0) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1)]
  unfold kernelRun0_B
  dsimp only
  sl_unfold_words
  rw [View.canon_unit_zero hz3]
  simp only [View.readAt_eq_ld, harg2.read_unread, harg3.read_unread, harg4.read_unread, harg10.read_unread, harg11.read_unread, harg12.read_unread,
    View.ld_unit_zero (S := S1024x1024) hz2, View.ld_unit_zero (S := S1024) hz1, View.ld_unit_zero (S := S2048x1024) hz2,
    View.ld_unit_zero (S := S1x2048x1024) hz3]
  rfl

/-- The carried keys after a point that starts a batch: the projection of the whole batch block. -/
theorem first_keys (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (hc0 : cond0_0 i)
    (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = k0_pay4 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1024x1024) hz2, View.ld_unit_zero (S := S1024) hz1, View.ld_unit_zero (S := S1x2048x1024) hz3]

/-- The carried values after a point that starts a batch: the projection of the whole batch block. -/
theorem first_vals (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (hc0 : cond0_0 i)
    (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = k0_pay5 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg7.read_unread, harg8.read_unread,
    View.ld_unit_zero (S := S1024x1024) hz2, View.ld_unit_zero (S := S1024) hz1, View.ld_unit_zero (S := S1x2048x1024) hz3]

/-- The first result's tile at a point that starts a batch: as at a later point, over the keys and values
    the point has just projected. -/
theorem first_out1 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (hc0 : cond0_0 i)
    (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6
      = k0_pay8 (tile i x0) x1 x2 (k0_pay4 x0 x3 x4) (k0_pay5 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz3]
  simp only [View.readCov_unit_zero (S := S2048x1024) _ hz2, View.readAt_eq_ld, harg2.read_unread, harg3.read_unread,
    harg4.read_unread, harg5.read_unread, harg6.read_unread, harg7.read_unread, harg8.read_unread,
    View.ld_unit_zero (S := S1024x1024) hz2, View.ld_unit_zero (S := S1024) hz1, View.ld_unit_zero (S := S1x2048x1024) hz3]
  rfl

/-- The text accumulator at a point that starts a batch: zero plus softmax rows transposed times the query tile. -/
theorem first_acc (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (hc0 : cond0_0 i)
    (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6
      = k0_pay1 (k0_pay6 (tile i x0)) (k0_pay7 (tile i x0) x1 x2 (k0_pay4 x0 x3 x4)) (k0_pay2 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_cons_unit_zero (S := S1x2048x1024) hz3]
  simp only [View.readCov_unit_zero (S := S2048x1024) _ hz2, View.readCov_unit_zero (S := S1x2048x1024) _ hz3,
    View.readAt_eq_ld, harg2.read_unread, harg3.read_unread,
    harg4.read_unread, harg5.read_unread, harg6.read_unread, harg7.read_unread, harg8.read_unread,
    View.ld_unit_zero (S := S1024x1024) hz2, View.ld_unit_zero (S := S1024) hz1, View.ld_unit_zero (S := S1x2048x1024) hz3]
  rfl

end Cert.KernelIdeal.Found

end
-- ==== Proof.MatMul.lean ====
/-
  The body's five matrix products read at an output index, on the extended reals: each is the plain sum over the
  contracted axis of the products of the two operands' entries, accumulated into zero.
    projection of the whole batch block   [2048,1024]·[1024,1024]   ∑_d l[j,d] · r[d,e]
    projection of the query tile          [256,1024]·[1024,1024]    ∑_d l[p,d] · r[d,e]
    scores (keys contracted on features)  [256,1024]·[2048,1024]ᵀ   ∑_e l[p,e] · r[j,e]
    softmax rows times values             [256,2048]·[2048,1024]    ∑_j l[p,j] · r[j,e]
    softmax columns times the tile        [256,2048]ᵀ·[256,1024]    ∑_p l[p,j] · r[p,e]
-/
import proofs.«132548_j70738111365466_2_alg».proof.Proof.Gen.KernelIdeal
import Idealize.ShloMosaic.Lib.ValueIdx
import Idealize.ShloMosaic.PureOps.Ideal.Laws

noncomputable section

namespace Cert.KernelIdeal.MatMul

open Cert.KernelIdeal Cert.KernelIdeal.Gen Idealize.ShloMosaic Idealize.ShloMosaic.ValueIdx

/-- The projection of a whole batch block at (position `p`, output feature `q`). -/
theorem proj_full (l : FVec Ideal S2048x1024 .bf16) (r : FVec Ideal S1024x1024 .bf16) (p : Fin 2048) (q : Fin 1024) :
    matmul dot_S2048x1024_S1024x1024_S2048x1024_1_0_0_1_n_n none l r (constant (F := Ideal) S2048x1024 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p q) ((contrEquiv1 dot_S2048x1024_S1024x1024_S2048x1024_1_0_0_1_n_n 1024 rfl rfl).symm k) = ix2 p k := funext fun a => Fin.ext (by
    match a with
    | ⟨0, _⟩ =>
      show (dot_S2048x1024_S1024x1024_S2048x1024_1_0_0_1_n_n.lhsIdx (ix2 p q) _ 0).val = p.val
      unfold DotDims.lhsIdx
      rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
      rfl
    | ⟨1, _⟩ => exact (dot_S2048x1024_S1024x1024_S2048x1024_1_0_0_1_n_n.lhsIdx_val_of_single rfl _ _).trans hk)
  have er : dot_S2048x1024_S1024x1024_S2048x1024_1_0_0_1_n_n.rhsIdx (ix2 p q) ((contrEquiv1 dot_S2048x1024_S1024x1024_S2048x1024_1_0_0_1_n_n 1024 rfl rfl).symm k) = ix2 k q := funext fun a => Fin.ext (by
    match a with
    | ⟨0, _⟩ => exact (dot_S2048x1024_S1024x1024_S2048x1024_1_0_0_1_n_n.rhsIdx_val_of_single rfl _ _).trans hk
    | ⟨1, _⟩ =>
      show (dot_S2048x1024_S1024x1024_S2048x1024_1_0_0_1_n_n.rhsIdx (ix2 p q) _ 1).val = q.val
      unfold DotDims.rhsIdx
      rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
      rfl)
  rw [el, er]

/-- The projection of the query tile at (row `p`, output feature `q`). -/
theorem proj_tile (l : FVec Ideal S256x1024 .bf16) (r : FVec Ideal S1024x1024 .bf16) (p : Fin 256) (q : Fin 1024) :
    matmul dot_S256x1024_S1024x1024_S256x1024_1_0_0_1_n_n none l r (constant (F := Ideal) S256x1024 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ =>
      show (dot_S256x1024_S1024x1024_S256x1024_1_0_0_1_n_n.lhsIdx (ix2 p q) _ 0).val = p.val
      unfold DotDims.lhsIdx
      rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
      rfl
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (dot_S256x1024_S1024x1024_S256x1024_1_0_0_1_n_n.rhsIdx_val_of_single rfl _ _).trans hk
    | ⟨1, _⟩ =>
      show (dot_S256x1024_S1024x1024_S256x1024_1_0_0_1_n_n.rhsIdx (ix2 p q) _ 1).val = q.val
      unfold DotDims.rhsIdx
      rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
      rfl)
  rw [el, er]

/-- The scores of tile row `p` against key position `q`: both operands contracted on their feature axis. -/
theorem scores (l : FVec Ideal S256x1024 .bf16) (r : FVec Ideal S2048x1024 .bf16) (p : Fin 256) (q : Fin 2048) :
    matmul dot_S256x1024_S2048x1024_S256x2048_1_1_0_0_n_n none l r (constant (F := Ideal) S256x2048 .f32 0x00000000#32) (ix2 p q)
      = ∑ k : Fin 1024, l (ix2 p k) * r (ix2 q k) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p q) ((contrEquiv1 dot_S256x1024_S2048x1024_S256x2048_1_1_0_0_n_n 1024 rfl rfl).symm k) = ix2 p k := funext fun a => Fin.ext (by
    match a with
    | ⟨0, _⟩ =>
      show (dot_S256x1024_S2048x1024_S256x2048_1_1_0_0_n_n.lhsIdx (ix2 p q) _ 0).val = p.val
      unfold DotDims.lhsIdx
      rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
      rfl
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 p q) ((contrEquiv1 dot_S256x1024_S2048x1024_S256x2048_1_1_0_0_n_n 1024 rfl rfl).symm k) = ix2 q k := funext fun a => Fin.ext (by
    match a with
    | ⟨0, _⟩ =>
      show (dot_S256x1024_S2048x1024_S256x2048_1_1_0_0_n_n.rhsIdx (ix2 p q) _ 0).val = q.val
      unfold DotDims.rhsIdx
      rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
      rfl
    | ⟨1, _⟩ => exact (dot_S256x1024_S2048x1024_S256x2048_1_1_0_0_n_n.rhsIdx_val_of_single rfl _ _).trans hk)
  rw [el, er]

/-- Softmax rows times the values at (tile row `p`, feature `q`). -/
theorem rows_times_values (l : FVec Ideal S256x2048 .bf16) (r : FVec Ideal S2048x1024 .bf16) (p : Fin 256) (q : Fin 1024) :
    matmul dot_S256x2048_S2048x1024_S256x1024_1_0_0_1_n_n none l r (constant (F := Ideal) S256x1024 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ =>
      show (dot_S256x2048_S2048x1024_S256x1024_1_0_0_1_n_n.lhsIdx (ix2 p q) _ 0).val = p.val
      unfold DotDims.lhsIdx
      rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
      rfl
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (dot_S256x2048_S2048x1024_S256x1024_1_0_0_1_n_n.rhsIdx_val_of_single rfl _ _).trans hk
    | ⟨1, _⟩ =>
      show (dot_S256x2048_S2048x1024_S256x1024_1_0_0_1_n_n.rhsIdx (ix2 p q) _ 1).val = q.val
      unfold DotDims.rhsIdx
      rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
      rfl)
  rw [el, er]

/-- Softmax columns times the query tile at (key position `p`, feature `q`): both operands contracted on the tile's row axis. -/
theorem cols_times_tile (l : FVec Ideal S256x2048 .bf16) (r : FVec Ideal S256x1024 .bf16) (p : Fin 2048) (q : Fin 1024) :
    matmul dot_S256x2048_S256x1024_S2048x1024_0_0_1_1_n_n none l r (constant (F := Ideal) S2048x1024 .f32 0x00000000#32) (ix2 p q)
      = ∑ k : Fin 256, l (ix2 k p) * r (ix2 k q) := by
  simp only [matmul]
  rw [Ideal.matmul_constant_zero_apply, ← Equiv.sum_comp (contrEquiv1 dot_S256x2048_S256x1024_S2048x1024_0_0_1_1_n_n 256 rfl rfl).symm]
  refine Finset.sum_congr rfl fun k _ => ?_
  have hk := contrEquiv1_symm_val dot_S256x2048_S256x1024_S2048x1024_0_0_1_1_n_n 256 rfl rfl k
  have el : dot_S256x2048_S256x1024_S2048x1024_0_0_1_1_n_n.lhsIdx (ix2 p q) ((contrEquiv1 dot_S256x2048_S256x1024_S2048x1024_0_0_1_1_n_n 256 rfl rfl).symm k) = ix2 k p := funext fun a => Fin.ext (by
    match a with
    | ⟨0, _⟩ => exact (dot_S256x2048_S256x1024_S2048x1024_0_0_1_1_n_n.lhsIdx_val_of_single rfl _ _).trans hk
    | ⟨1, _⟩ =>
      show (dot_S256x2048_S256x1024_S2048x1024_0_0_1_1_n_n.lhsIdx (ix2 p q) _ 1).val = p.val
      unfold DotDims.lhsIdx
      rw [dif_neg (show ¬(1 : Fin S256x2048.rank) ∈ dot_S256x2048_S256x1024_S2048x1024_0_0_1_1_n_n.lhsBatch by decide), dif_pos (show (1 : Fin S256x2048.rank) ∈ dot_S256x2048_S256x1024_S2048x1024_0_0_1_1_n_n.lhsNonContracting by decide)]
      rfl)
  have er : dot_S256x2048_S256x1024_S2048x1024_0_0_1_1_n_n.rhsIdx (ix2 p q) ((contrEquiv1 dot_S256x2048_S256x1024_S2048x1024_0_0_1_1_n_n 256 rfl rfl).symm k) = ix2 k q := funext fun a => Fin.ext (by
    match a with
    | ⟨0, _⟩ => exact (dot_S256x2048_S256x1024_S2048x1024_0_0_1_1_n_n.rhsIdx_val_of_single rfl _ _).trans hk
    | ⟨1, _⟩ =>
      show (dot_S256x2048_S256x1024_S2048x1024_0_0_1_1_n_n.rhsIdx (ix2 p q) _ 1).val = q.val
      unfold DotDims.rhsIdx
      rw [dif_neg (show ¬(1 : Fin S256x1024.rank) ∈ dot_S256x2048_S256x1024_S2048x1024_0_0_1_1_n_n.rhsBatch by decide), dif_pos (show (1 : Fin S256x1024.rank) ∈ dot_S256x2048_S256x1024_S2048x1024_0_0_1_1_n_n.rhsNonContracting by decide)]
      rfl)
  rw [el, er]

end Cert.KernelIdeal.MatMul

end
-- ==== Proof.Payloads.lean ====
/-
  The body's pure terms read at an index, on the extended reals.

  For a batch block `xb` [1,2048,1024], a transposed weight `wT` [1024,1024] and a bias `β` [1024]:
    the projection        (xb·wT + β)[j,e]   = ∑_d xb[0,j,d]·wT[d,e] + β[e]
  and for a query tile `v6` [1,256,1024], keys `K` and values `Vv` [2048,1024]:
    scaled queries        tq r e = (∑_d v6[0,r,d]·wT[d,e] + β[e]) · c        (c the literal 2⁻⁵)
    scores                ts r j = ∑_e tq r e · K[j,e]
    softmax rows          ta r j = exp (ts r j − max_j ts r j) / ∑_j exp (ts r j − max_j ts r j)
    first result's tile   ∑_j ta r j · Vv[j,e]
    accumulator update    acc[0,j,e] + ∑_r ta r j · v6[0,r,e]
  A change of float format is the identity here, and a column [a] → [a,1] → [a,b] repeats its entry along the row.
-/
import proofs.«132548_j70738111365466_2_alg».proof.Proof.Gen.KernelIdeal.Skeleton
import proofs.«132548_j70738111365466_2_alg».proof.Proof.MatMul
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## Two column layouts -/

/-- A vector [a] cast to a column [a,1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a,1] broadcast to [a,b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a row reduction of a [256,2048] array inserts on its dropped axis: (r, k). -/
theorem lift_row (r : Fin 256) (k : Fin 2048) : reduces_S256x2048_S256.lift (ix1 r) k = ix2 r k :=
  funext fun a => Fin.ext (by match a with | ⟨0, _⟩ => rfl | ⟨1, _⟩ => rfl)

/-- A row maximum of a [256,2048] array, from −∞: the fold of `max` over the row. -/
theorem rowmax_apply (s : FVec Ideal S256x2048 .f32) (hφ : FKind.Formats .f32)
    (hacc : (0xFF800000#32 : BitVec 32) = 0xFF800000#32) (r : Fin 256) :
    multiReduction .maximumf [1] S256 s 0xFF800000#32 reduces_S256x2048_S256 hφ hacc (ix1 r)
      = (Finset.univ : Finset (Fin 2048)).fold max (Ideal.ofBits .f32 0xFF800000#32) (fun j => s (ix2 r j)) :=
  (Ideal.multiReduction_maximumf_single s 0xFF800000#32 reduces_S256x2048_S256 hφ hacc (ix1 r)).trans
    (congrArg (fun f => Finset.fold max _ f Finset.univ) (funext fun k => congrArg s (lift_row r k)))

/-- A row sum of a [256,2048] array, from zero. -/
theorem rowsum_apply (s : FVec Ideal S256x2048 .f32) (hφ : FKind.Formats .f32)
    (hacc : (0x00000000#32 : BitVec 32) = 0x00000000#32) (r : Fin 256) :
    multiReduction .add [1] S256 s 0x00000000#32 reduces_S256x2048_S256 hφ hacc (ix1 r) = ∑ j : Fin 2048, s (ix2 r j) :=
  (Ideal.multiReduction_add_single s 0x00000000#32 reduces_S256x2048_S256 hφ hacc (ix1 r)).trans
    (Finset.sum_congr rfl fun k _ => congrArg s (lift_row r k))

/-! ## The projections of a whole batch block -/

/-- The batch block with its unit axis dropped and its format changed reads the block itself. -/
theorem pay3_apply (xb : Vec Ideal S1x2048x1024 .f32) (j : Fin 2048) (d : Fin 1024) :
    k0_pay3 (F := Ideal) xb (ix2 j d) = xb (ix3 (0 : Fin 1) j d) := by
  unfold k0_pay3
  rw [truncf_apply, shapeCast_1ab_ab_apply]

/-- A projection of the batch block: `∑_d xb[0,j,d]·wT[d,e] + β[e]`. -/
def proj (xb : Vec Ideal S1x2048x1024 .f32) (wT : Vec Ideal S1024x1024 .bf16) (β : Vec Ideal S1024 .f32)
    (j : Fin 2048) (e : Fin 1024) : EReal :=
  (∑ d : Fin 1024, xb (ix3 (0 : Fin 1) j d) * wT (ix2 d e)) + β (ix1 e)

theorem pay4_apply (xb : Vec Ideal S1x2048x1024 .f32) (wT : Vec Ideal S1024x1024 .bf16) (β : Vec Ideal S1024 .f32)
    (j : Fin 2048) (e : Fin 1024) : k0_pay4 (F := Ideal) xb wT β (ix2 j e) = proj xb wT β j e := by
  unfold k0_pay4 proj
  rw [shapeCast_self, truncf_apply, addf_apply, MatMul.proj_full, broadcastTo_1b_ab_apply, shapeCast_a_1a_apply, shapeCast_self]
  simp only [pay3_apply]

theorem pay5_apply (xb : Vec Ideal S1x2048x1024 .f32) (wT : Vec Ideal S1024x1024 .bf16) (β : Vec Ideal S1024 .f32)
    (j : Fin 2048) (e : Fin 1024) : k0_pay5 (F := Ideal) xb wT β (ix2 j e) = proj xb wT β j e := by
  unfold k0_pay5 proj
  rw [shapeCast_self, truncf_apply, addf_apply, MatMul.proj_full, broadcastTo_1b_ab_apply, shapeCast_a_1a_apply, shapeCast_self]
  simp only [pay3_apply]

/-! ## The zeroed accumulator -/

theorem pay2_apply (u : Fin 1) (j : Fin 2048) (e : Fin 1024) : k0_pay2 (F := Ideal) (ix3 u j e) = 0 := by
  unfold k0_pay2
  rw [shapeCast_ab_1ab_apply, broadcast_apply]
  exact Ideal.ofBits_zero_f32

/-! ## The query tile -/

theorem pay6_apply (v6 : Vec Ideal S1x256x1024 .f32) (r : Fin 256) (d : Fin 1024) :
    k0_pay6 (F := Ideal) v6 (ix2 r d) = v6 (ix3 (0 : Fin 1) r d) := by
  unfold k0_pay6
  rw [truncf_apply, shapeCast_1ab_ab_apply]

/-! ## Softmax rows of the tile against the carried keys -/

section
variable (v6 : Vec Ideal S1x256x1024 .f32) (wT : Vec Ideal S1024x1024 .bf16) (β : Vec Ideal S1024 .f32)
  (K : Vec Ideal S2048x1024 .bf16)

/-- The scaled query of tile row `r` at feature `e`. -/
def tq (r : Fin 256) (e : Fin 1024) : EReal :=
  ((∑ d : Fin 1024, v6 (ix3 (0 : Fin 1) r d) * wT (ix2 d e)) + β (ix1 e)) * Ideal.ofBits .f32 0x3D000000#32

/-- The score of tile row `r` against key position `j`. -/
def ts (r : Fin 256) (j : Fin 2048) : EReal := ∑ e : Fin 1024, tq v6 wT β r e * K (ix2 j e)

/-- The row maximum, folded from −∞. -/
def tm (r : Fin 256) : EReal :=
  (Finset.univ : Finset (Fin 2048)).fold max (Ideal.ofBits .f32 0xFF800000#32) (fun j => ts v6 wT β K r j)

/-- The shifted exponential. -/
def te (r : Fin 256) (j : Fin 2048) : EReal := Ideal.exp (ts v6 wT β K r j - tm v6 wT β K r)

/-- The softmax weight. -/
def ta (r : Fin 256) (j : Fin 2048) : EReal := Ideal.div (te v6 wT β K r j) (∑ j' : Fin 2048, te v6 wT β K r j')

theorem pay7_apply (r : Fin 256) (j : Fin 2048) : k0_pay7 (F := Ideal) v6 wT β K (ix2 r j) = ta v6 wT β K r j := by
  unfold k0_pay7 ta te tm ts tq
  simp only [truncf_apply, divf_apply, subf_apply, addf_apply, mulf_apply, exp, broadcast_apply, broadcastTo_a1_ab_apply,
    shapeCast_a_a1_apply, MatMul.scores, MatMul.proj_tile, broadcastTo_1b_ab_apply, shapeCast_a_1a_apply, shapeCast_self, pay6_apply,
    Ideal.exp_def, Ideal.ofBits_def]
  rw [rowmax_apply, rowsum_apply]
  simp only [truncf_apply, divf_apply, subf_apply, addf_apply, mulf_apply, exp, broadcast_apply, broadcastTo_a1_ab_apply,
    shapeCast_a_a1_apply, MatMul.scores, MatMul.proj_tile, broadcastTo_1b_ab_apply, shapeCast_a_1a_apply, shapeCast_self, pay6_apply,
    Ideal.exp_def, Ideal.ofBits_def]
  rw [rowmax_apply]
  simp only [truncf_apply, divf_apply, subf_apply, addf_apply, mulf_apply, exp, broadcast_apply, broadcastTo_a1_ab_apply,
    shapeCast_a_a1_apply, MatMul.scores, MatMul.proj_tile, broadcastTo_1b_ab_apply, shapeCast_a_1a_apply, shapeCast_self, pay6_apply,
    Ideal.exp_def, Ideal.ofBits_def]

/-- The first result's tile: softmax rows times the values. -/
theorem pay8_apply (Vv : Vec Ideal S2048x1024 .bf16) (u : Fin 1) (r : Fin 256) (e : Fin 1024) :
    k0_pay8 (F := Ideal) v6 wT β K Vv (ix3 u r e) = ∑ j : Fin 2048, ta v6 wT β K r j * Vv (ix2 j e) := by
  unfold k0_pay8
  rw [shapeCast_ab_1ab_apply, MatMul.rows_times_values]
  simp only [pay7_apply]

end

/-- The accumulator update: what it held plus softmax columns times the tile. -/
theorem pay1_apply (v8 : FVec Ideal S256x1024 .bf16) (v31 : FVec Ideal S256x2048 .bf16) (v37 : Vec Ideal S1x2048x1024 .f32)
    (u : Fin 1) (j : Fin 2048) (e : Fin 1024) :
    k0_pay1 (F := Ideal) v8 v31 v37 (ix3 u j e)
      = v37 (ix3 (0 : Fin 1) j e) + ∑ r : Fin 256, v31 (ix2 r j) * v8 (ix2 r e) := by
  unfold k0_pay1
  rw [shapeCast_ab_1ab_apply, addf_apply, shapeCast_1ab_ab_apply, MatMul.cols_times_tile]

end Cert.KernelIdeal.Pay

end
-- ==== Proof.Spec.lean ====
/-
  The specification: cross attention of one activation array against itself, as a function of the seven
  argument arrays, index by index, on the extended reals.

  With `x` of shape [4, 2048, 1024] (batch, position, feature) and three linear layers (`W` of shape
  [1024, 1024] applied as `x · Wᵀ + β`), for every batch `b`:
    queries, keys, values   q, k, v = lin x W_ β_
    scores                  s i j   = (∑ₑ q i e · k j e) · 1/32          (1/32 = 1/√1024)
    softmax rows            a i j   = exp (s i j − maxⱼ s i j) / ∑ⱼ exp (s i j − maxⱼ s i j)
    first result            vision i e = ∑ⱼ a i j · v j e
    second result           text j e   = ∑ᵢ a i j · x i e                (the transposed softmax times the input)
  The row maximum is a fold of `max` from the literal −∞ (kept as its binary word: both programs spell the same word).
-/
import Idealize.ShloMosaic.PureOps.Ideal
import Idealize.ShloMosaic.Lib.ValueIdx

noncomputable section

namespace Cert.Attn

open Idealize.ShloMosaic Idealize.ShloMosaic.ValueIdx

/-- The activation array's type, the weight matrices' and the biases'. -/
abbrev Act := FVec Ideal ⟨3, ![4, 2048, 1024]⟩ .f32
abbrev Mat := FVec Ideal ⟨2, ![1024, 1024]⟩ .f32
abbrev Bias := FVec Ideal ⟨1, ![1024]⟩ .f32

/-- The scale `1/√1024 = 1/32`. -/
def scale : EReal := ((1 / 32 : ℝ) : EReal)

/-- A linear layer at (batch `b`, position `s`, output feature `e`): `∑_d x[b,s,d] · W[e,d] + β[e]`. -/
def lin (X : Act) (W : Mat) (β : Bias) (b : Fin 4) (s : Fin 2048) (e : Fin 1024) : EReal :=
  (∑ d : Fin 1024, X (ix3 b s d) * W (ix2 e d)) + β (ix1 e)

section
variable (X : Act) (Wq : Mat) (bq : Bias) (Wk : Mat) (bk : Bias) (Wv : Mat) (bv : Bias)

/-- The scaled score of query position `i` against key position `j`. -/
def score (b : Fin 4) (i j : Fin 2048) : EReal :=
  (∑ e : Fin 1024, lin X Wq bq b i e * lin X Wk bk b j e) * scale

/-- The maximum of a row of scores, folded from −∞. -/
def rowMax (b : Fin 4) (i : Fin 2048) : EReal :=
  (Finset.univ : Finset (Fin 2048)).fold max (Ideal.ofBits .f32 0xFF800000#32) (fun j => score X Wq bq Wk bk b i j)

/-- The shifted exponential of a score. -/
def expo (b : Fin 4) (i j : Fin 2048) : EReal :=
  Ideal.exp (score X Wq bq Wk bk b i j - rowMax X Wq bq Wk bk b i)

/-- The softmax weight of key position `j` for query position `i`. -/
def attn (b : Fin 4) (i j : Fin 2048) : EReal :=
  Ideal.div (expo X Wq bq Wk bk b i j) (∑ j' : Fin 2048, expo X Wq bq Wk bk b i j')

/-- The first result: softmax rows times the values. -/
def vision (b : Fin 4) (i : Fin 2048) (e : Fin 1024) : EReal :=
  ∑ j : Fin 2048, attn X Wq bq Wk bk b i j * lin X Wv bv b j e

/-- The second result: softmax columns times the input. -/
def text (b : Fin 4) (j : Fin 2048) (e : Fin 1024) : EReal :=
  ∑ i : Fin 2048, attn X Wq bq Wk bk b i j * X (ix3 b i e)

/-- The two results as whole arrays. -/
def visionArr : Act := fun idx => vision X Wq bq Wk bk Wv bv (idx 0) (idx 1) (idx 2)
def textArr : Act := fun idx => text X Wq bq Wk bk (idx 0) (idx 1) (idx 2)

end

end Cert.Attn

end
-- ==== Proof.Consts.lean ====
/-
  The float literals the two programs spell, as the extended reals their words denote, and the one computed
  constant: `1 / √1024 = 1/32`, which is also exactly the word `0x3D000000` (2⁻⁵).
-/
import Idealize.ShloMosaic.PureOps.Ideal
import proofs.«132548_j70738111365466_2_alg».proof.Proof.Spec

noncomputable section

namespace Cert.Attn

open Idealize.ShloMosaic

/-- The word `0x3D000000` (2⁻⁵) denotes `1/32`. -/
theorem ofBits_scale : Ideal.ofBits .f32 0x3D000000#32 = scale := by
  unfold scale
  simp [Ideal.ofBits, Ideal.ieee, -EReal.coe_mul]; norm_num

/-- `1024.0` denotes the real 1024. -/
theorem ofBits_1024 : Ideal.ofBits .f32 0x44800000#32 = ((1024 : ℝ) : EReal) := by
  simp [Ideal.ofBits, Ideal.ieee, -EReal.coe_mul]; norm_num

/-- `1.0` denotes 1. -/
theorem ofBits_one : Ideal.ofBits .f32 0x3F800000#32 = ((1 : ℝ) : EReal) := by
  simp [Ideal.ofBits, Ideal.ieee, -EReal.coe_mul]; norm_num

/-- The square root of 1024 is 32. -/
theorem sqrt_1024 : Real.sqrt 1024 = 32 := by
  rw [show (1024 : ℝ) = 32 * 32 by norm_num]
  exact Real.sqrt_mul_self (by norm_num)

/-- `1 / √1024`, as the reference computes it from the two literals, is `1/32`. -/
theorem one_div_sqrt : Ideal.div (Ideal.ofBits .f32 0x3F800000#32) (Ideal.sqrt (Ideal.ofBits .f32 0x44800000#32)) = scale := by
  rw [ofBits_one, ofBits_1024, Ideal.sqrt_coe, if_neg (by norm_num), sqrt_1024,
    Ideal.div_coe (by norm_num : (32 : ℝ) ≠ 0), ← EReal.coe_mul, one_mul]
  rfl

/-- The scale is a nonnegative real. -/
theorem scale_nonneg : (0 : ℝ) ≤ 1 / 32 := by norm_num

end Cert.Attn

end
-- ==== Proof.ScaleLaw.lean ====
/-
  Scaling a finite sum of extended reals by a nonnegative finite constant.

  On the extended reals multiplication does not distribute over addition in general
  (`⊤ + ⊥ = ⊥`), but it does when the common factor is a nonnegative real number: such a
  factor maps `⊤` to `⊤` (or everything to `0`), `⊥` to `⊥`, and is additive on the reals.
  So a common nonnegative real factor can be moved across any finite sum, whatever the summands are.
-/
import Mathlib.Data.EReal.Inv
import Mathlib.Algebra.BigOperators.Group.Finset.Basic

namespace Cert.AttnLaw

open Finset

/-- A nonnegative real factor moves across a finite sum of extended reals: `(∑ a k) · c = ∑ (a k · c)`. -/
theorem sum_mul_real {ι : Type*} (s : Finset ι) (a : ι → EReal) (c : ℝ) (hc : 0 ≤ c) :
    (∑ k ∈ s, a k) * (c : EReal) = ∑ k ∈ s, a k * (c : EReal) := by
  classical
  induction s using Finset.induction_on with
  | empty => simp
  | insert k s hk ih =>
    rw [Finset.sum_insert hk, Finset.sum_insert hk, ← ih]
    exact EReal.right_distrib_of_nonneg_of_ne_top (EReal.coe_nonneg.mpr hc) (EReal.coe_ne_top c) _ _

/-- The scaled dot product: scaling one factor of every term scales the whole sum,
    `∑ (q k · c) · w k = (∑ q k · w k) · c` for a nonnegative real `c`. -/
theorem sum_scaled_mul {ι : Type*} (s : Finset ι) (q w : ι → EReal) (c : ℝ) (hc : 0 ≤ c) :
    ∑ k ∈ s, (q k * (c : EReal)) * w k = (∑ k ∈ s, q k * w k) * (c : EReal) := by
  rw [sum_mul_real s _ c hc]
  exact Finset.sum_congr rfl fun k _ => mul_right_comm (q k) (c : EReal) (w k)

end Cert.AttnLaw
-- ==== Proof.TileValue.lean ====
/-
  One grid point's arithmetic is the specification's, row for row.

  Suppose the query tile holds rows `row r` of batch `b` of the activations, the staged weight is the transposed
  query weight, the carried buffers hold the key and value projections of batch `b`. Then the tile's scaled
  queries are the specification's queries times 1/32; moving that common nonnegative real factor out of the sum
  over features turns the tile's scores into the specification's scores; and from there the row maximum, the
  shifted exponentials, the softmax weights, the first result's rows and the accumulator's update are the
  specification's, term for term.

  The text result sums over all 2048 query positions; the kernel adds them 256 at a time. `partialText n` is the
  sum over the first `256·(n+1)` query positions, so that `partialText 7` is the whole sum.
-/
import proofs.«132548_j70738111365466_2_alg».proof.Proof.Payloads
import proofs.«132548_j70738111365466_2_alg».proof.Proof.Consts
import proofs.«132548_j70738111365466_2_alg».proof.Proof.ScaleLaw

noncomputable section

namespace Cert.KernelIdeal.Tile

open Cert.KernelIdeal Cert.KernelIdeal.Gen Idealize.ShloMosaic Idealize.ShloMosaic.ValueIdx Cert.Attn

/-- Row `r` of query tile `q` (of eight) is position `256·q + r`. -/
def rowOf (q : ℕ) (hq : q < 8) (r : Fin 256) : Fin 2048 := ⟨256 * q + r.val, by have := r.isLt; omega⟩

/-- A projection of a batch block is the specification's linear layer of that batch. -/
theorem proj_eq (X : Act) (W : Mat) (bias : Bias) (b : Fin 4)
    (xb : Vec Ideal S1x2048x1024 .f32) (wT : Vec Ideal S1024x1024 .bf16) (β : Vec Ideal S1024 .f32)
    (hx : ∀ j d, xb (ix3 (0 : Fin 1) j d) = X (ix3 b j d)) (hw : ∀ d e, wT (ix2 d e) = W (ix2 e d))
    (hβ : ∀ e, β (ix1 e) = bias (ix1 e)) (j : Fin 2048) (e : Fin 1024) :
    Pay.proj xb wT β j e = lin X W bias b j e := by
  unfold Pay.proj lin
  rw [hβ]
  exact congrArg (· + bias (ix1 e)) (Finset.sum_congr rfl fun d _ => by rw [hx, hw])

/-- How one point's buffers read the argument arrays. -/
structure Reads (X : Act) (Wq : Mat) (bq : Bias) (Wk : Mat) (bk : Bias) (Wv : Mat) (bv : Bias) (b : Fin 4) (row : Fin 256 → Fin 2048)
    (v6 : Vec Ideal S1x256x1024 .f32) (wT : Vec Ideal S1024x1024 .bf16) (β : Vec Ideal S1024 .f32)
    (K Vv : Vec Ideal S2048x1024 .bf16) : Prop where
  tile : ∀ r d, v6 (ix3 (0 : Fin 1) r d) = X (ix3 b (row r) d)
  weight : ∀ d e, wT (ix2 d e) = Wq (ix2 e d)
  bias : ∀ e, β (ix1 e) = bq (ix1 e)
  keys : ∀ j e, K (ix2 j e) = lin X Wk bk b j e
  vals : ∀ j e, Vv (ix2 j e) = lin X Wv bv b j e

section
variable {X : Act} {Wq : Mat} {bq : Bias} {Wk : Mat} {bk : Bias} {Wv : Mat} {bv : Bias} {b : Fin 4} {row : Fin 256 → Fin 2048}
  {v6 : Vec Ideal S1x256x1024 .f32} {wT : Vec Ideal S1024x1024 .bf16} {β : Vec Ideal S1024 .f32} {K Vv : Vec Ideal S2048x1024 .bf16}

theorem tq_eq (H : Reads X Wq bq Wk bk Wv bv b row v6 wT β K Vv) (r : Fin 256) (e : Fin 1024) :
    Pay.tq v6 wT β r e = lin X Wq bq b (row r) e * ((1 / 32 : ℝ) : EReal) := by
  unfold Pay.tq lin
  rw [ofBits_scale, H.bias]
  unfold scale
  exact congrArg (fun s => (s + bq (ix1 e)) * ((1 / 32 : ℝ) : EReal)) (Finset.sum_congr rfl fun d _ => by rw [H.tile, H.weight])

theorem ts_eq (H : Reads X Wq bq Wk bk Wv bv b row v6 wT β K Vv) (r : Fin 256) (j : Fin 2048) :
    Pay.ts v6 wT β K r j = score X Wq bq Wk bk b (row r) j := by
  unfold Pay.ts score scale
  rw [← Cert.AttnLaw.sum_scaled_mul Finset.univ _ _ (1 / 32) scale_nonneg]
  exact Finset.sum_congr rfl fun e _ => by rw [tq_eq H, H.keys]

theorem tm_eq (H : Reads X Wq bq Wk bk Wv bv b row v6 wT β K Vv) (r : Fin 256) :
    Pay.tm v6 wT β K r = rowMax X Wq bq Wk bk b (row r) := by
  unfold Pay.tm rowMax
  exact congrArg (fun f => Finset.fold max _ f Finset.univ) (funext fun j => ts_eq H r j)

theorem te_eq (H : Reads X Wq bq Wk bk Wv bv b row v6 wT β K Vv) (r : Fin 256) (j : Fin 2048) :
    Pay.te v6 wT β K r j = expo X Wq bq Wk bk b (row r) j := by
  unfold Pay.te expo
  rw [ts_eq H, tm_eq H]

theorem ta_eq (H : Reads X Wq bq Wk bk Wv bv b row v6 wT β K Vv) (r : Fin 256) (j : Fin 2048) :
    Pay.ta v6 wT β K r j = attn X Wq bq Wk bk b (row r) j := by
  unfold Pay.ta attn
  rw [te_eq H]
  exact congrArg (Ideal.div _) (Finset.sum_congr rfl fun j' _ => te_eq H r j')

/-- The first result's tile is rows `row r` of the specification's first result. -/
theorem out1_eq (H : Reads X Wq bq Wk bk Wv bv b row v6 wT β K Vv) (u : Fin 1) (r : Fin 256) (e : Fin 1024) :
    k0_pay8 (F := Ideal) v6 wT β K Vv (ix3 u r e) = vision X Wq bq Wk bk Wv bv b (row r) e := by
  rw [Pay.pay8_apply]
  unfold vision
  exact Finset.sum_congr rfl fun j _ => by rw [ta_eq H, H.vals]

/-- The accumulator's update adds this tile's 256 terms of the text sum. -/
theorem acc_eq (H : Reads X Wq bq Wk bk Wv bv b row v6 wT β K Vv) (prev : Vec Ideal S1x2048x1024 .f32)
    (u : Fin 1) (j : Fin 2048) (e : Fin 1024) :
    k0_pay1 (F := Ideal) (k0_pay6 v6) (k0_pay7 v6 wT β K) prev (ix3 u j e)
      = prev (ix3 (0 : Fin 1) j e) + ∑ r : Fin 256, attn X Wq bq Wk bk b (row r) j * X (ix3 b (row r) e) := by
  rw [Pay.pay1_apply]
  exact congrArg (prev (ix3 (0 : Fin 1) j e) + ·)
    (Finset.sum_congr rfl fun r _ => by rw [Pay.pay7_apply, ta_eq H, Pay.pay6_apply, H.tile])

end

/-! ## The text sum, 256 query positions at a time -/

section
variable (X : Act) (Wq : Mat) (bq : Bias) (Wk : Mat) (bk : Bias) (b : Fin 4) (j : Fin 2048) (e : Fin 1024)

/-- Query position `i`'s term of the text sum (zero past the last position). -/
def textTerm (i : ℕ) : EReal :=
  if h : i < 2048 then attn X Wq bq Wk bk b ⟨i, h⟩ j * X (ix3 b ⟨i, h⟩ e) else 0

/-- The text sum over the first `256·(n+1)` query positions. -/
def partialText (n : ℕ) : EReal := ∑ i ∈ Finset.range (256 * (n + 1)), textTerm X Wq bq Wk bk b j e i

/-- Tile `q`'s 256 terms. -/
theorem tile_terms (q : ℕ) (hq : q < 8) :
    ∑ r : Fin 256, attn X Wq bq Wk bk b (rowOf q hq r) j * X (ix3 b (rowOf q hq r) e)
      = ∑ x ∈ Finset.range 256, textTerm X Wq bq Wk bk b j e (256 * q + x) := by
  rw [Finset.sum_range]
  exact Finset.sum_congr rfl fun r _ => by
    unfold textTerm
    rw [dif_pos (show 256 * q + r.val < 2048 by have := r.isLt; omega)]
    rfl

theorem partialText_zero :
    partialText X Wq bq Wk bk b j e 0
      = 0 + ∑ r : Fin 256, attn X Wq bq Wk bk b (rowOf 0 (by omega) r) j * X (ix3 b (rowOf 0 (by omega) r) e) := by
  rw [tile_terms, zero_add]
  unfold partialText
  exact Finset.sum_congr rfl fun x _ => by rw [Nat.mul_zero, Nat.zero_add]

theorem partialText_succ (n : ℕ) (hn : n + 1 < 8) :
    partialText X Wq bq Wk bk b j e (n + 1)
      = partialText X Wq bq Wk bk b j e n
        + ∑ r : Fin 256, attn X Wq bq Wk bk b (rowOf (n + 1) hn r) j * X (ix3 b (rowOf (n + 1) hn r) e) := by
  rw [tile_terms]
  unfold partialText
  rw [show 256 * (n + 1 + 1) = 256 * (n + 1) + 256 by ring, Finset.sum_range_add]

/-- After the eighth tile the partial sum is the whole text sum. -/
theorem partialText_last : partialText X Wq bq Wk bk b j e 7 = text X Wq bq Wk bk b j e := by
  unfold partialText text
  rw [show 256 * (7 + 1) = 2048 by norm_num, Finset.sum_range]
  exact Finset.sum_congr rfl fun i _ => by
    unfold textTerm
    rw [dif_pos i.isLt]

end

end Cert.KernelIdeal.Tile

end
-- ==== Proof.Blocks.lean ====
/-
  What each window's block holds at a grid point, read off the argument arrays.

  Point `t` of the 4 × 8 grid is batch `t / 8`, query tile `t % 8`. The activations' block is the whole batch
  (its index map moves only with the batch); the three weights arrive transposed (the host transposes them
  before the call, and the change of format is the identity), so the staged matrix at (d, e) is the weight at
  (e, d); the biases arrive whole; the query tile is rows `256·(t % 8) + r` of the batch block.
-/
import proofs.«132548_j70738111365466_2_alg».proof.Proof.Found
import proofs.«132548_j70738111365466_2_alg».proof.Proof.TileValue
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Blk

open Cert.KernelIdeal Cert.KernelIdeal.Gen

variable (m : (ℓ : Loc nD τ sig) → Buf (Elt Ideal) ℓ)

/-- The batch of a grid point. -/
def batch (t : Fin cfg0.N) : Fin 4 := ⟨t.val / 8, by have := t.isLt; have : cfg0.N = 32 := N_0; omega⟩

/-- The row of the batch that row `r` of the point's query tile is. -/
def row (t : Fin cfg0.N) (r : Fin 256) : Fin 2048 := Tile.rowOf (t.val % 8) (Nat.mod_lt _ (by norm_num)) r

/-- The activations' window: block (t / 8, 0, 0). -/
theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)

/-- The weights' and biases' windows never move. -/
theorem idxW : ∀ t : Fin cfg0.N,
    ((win0_1.index t (0 : Fin 2) = 0 ∧ win0_1.index t (1 : Fin 2) = 0) ∧ (win0_3.index t (0 : Fin 2) = 0 ∧ win0_3.index t (1 : Fin 2) = 0)
      ∧ (win0_5.index t (0 : Fin 2) = 0 ∧ win0_5.index t (1 : Fin 2) = 0))
    ∧ (win0_2.index t (0 : Fin 1) = 0 ∧ win0_4.index t (0 : Fin 1) = 0 ∧ win0_6.index t (0 : Fin 1) = 0) :=
  (by decide +kernel : ∀ t : Fin grid0.N, _)

/-- The query tile starts at row 256·(t % 8) of the batch block. -/
theorem off1 : ∀ t : Fin cfg0.N, k0_off1 (grid0.coords t) = ![0, 256 * (t.val % 8), 0] :=
  (by decide +kernel : ∀ t : Fin grid0.N, _)

/-- The activations' block at a point is its batch. -/
theorem xblk (c : Dev nD) (t : Fin cfg0.N) (u : Fin 1) (j : Fin 2048) (d : Fin 1024) :
    (iblk m c 0 t : Vec Ideal S1x2048x1024 .f32) (ix3 u j d) = m ((c : Thread nD τ).loc main_arg0) (ix3 (batch t) j d) := by
  unfold iblk
  rw [View.read_apply]
  show V m c main_arg0 (((cfg0.win 0).blk t).view.emb (ix3 u j d)) = _
  have he : ((cfg0.win 0).blk t).view.emb (ix3 u j d) = ix3 (batch t) j d := by
    obtain ⟨e0, e1, e2⟩ := idx0 t
    have hu : u.val = 0 := by omega
    funext a; apply Fin.ext
    match a with
    | ⟨0, _⟩ => show win0_0.index t (0 : Fin 3) * 1 + 1 * u.val = t.val / 8; rw [e0, hu]; omega
    | ⟨1, _⟩ => show win0_0.index t (1 : Fin 3) * 2048 + 1 * j.val = j.val; rw [e1]; omega
    | ⟨2, _⟩ => show win0_0.index t (2 : Fin 3) * 1024 + 1 * d.val = d.val; rw [e2]; omega
  rw [he, V_main_arg0]

/-- The query tile reads the batch block at rows `256·(t % 8) + r`. -/
theorem tile_apply (t : Fin cfg0.N) (x0 : Vec Ideal S1x2048x1024 .f32) (u : Fin 1) (r : Fin 256) (d : Fin 1024) :
    Found.tile (grid0.coords t) x0 (ix3 u r d) = x0 (ix3 (0 : Fin 1) (row t r) d) := by
  unfold Found.tile
  show x0 ((Rect.unit (s := S1x2048x1024) (k0_off1 (grid0.coords t)) S1x256x1024.size (k0_off1_inb (grid0.coords t))).emb (ix3 u r d)) = _
  congr 1
  have hu : u.val = 0 := by omega
  funext a; apply Fin.ext
  match a with
  | ⟨0, _⟩ => show k0_off1 (grid0.coords t) (0 : Fin 3) + 1 * u.val = 0; rw [off1 t, hu]; rfl
  | ⟨1, _⟩ => show k0_off1 (grid0.coords t) (1 : Fin 3) + 1 * r.val = 256 * (t.val % 8) + r.val; rw [off1 t]; show 256 * (t.val % 8) + 1 * r.val = _; omega
  | ⟨2, _⟩ => show k0_off1 (grid0.coords t) (2 : Fin 3) + 1 * d.val = d.val; rw [off1 t]; show 0 + 1 * d.val = _; omega

/-- The staged query weight at (d, e) is the query weight at (e, d). -/
theorem wblk1 (c : Dev nD) (t : Fin cfg0.N) (d e : Fin 1024) :
    (iblk m c 1 t : Vec Ideal S1024x1024 .bf16) (ix2 d e) = m ((c : Thread nD τ).loc main_arg1) (ix2 e d) := by
  unfold iblk
  rw [View.read_apply]
  show V m c main_v1 (((cfg0.win 1).blk t).view.emb (ix2 d e)) = _
  have hv : @Eq (FVec Ideal S1024x1024 .bf16) (V m c main_v1)
      (truncf (F := Ideal) .bf16 (transpose S1024x1024 [1, 0] (m ((c : Thread nD τ).loc main_arg1)) transposes_S1024x1024_S1024x1024_1_0) bitsLt_bf16_f32) := by
    dsimp only [Gen.V, Gen.hostOps0]; after_results
  have he : ((cfg0.win 1).blk t).view.emb (ix2 d e) = ix2 d e := by
    obtain ⟨e0, e1⟩ := idxW t
    funext a; apply Fin.ext
    match a with
    | ⟨0, _⟩ => show win0_1.index t (0 : Fin 2) * 1024 + 1 * d.val = d.val; rw [e0.1.1]; omega
    | ⟨1, _⟩ => show win0_1.index t (1 : Fin 2) * 1024 + 1 * e.val = e.val; rw [e0.1.2]; omega
  rw [he, hv, truncf_apply, transpose_ix2_apply]

/-- The staged key weight at (d, e) is the key weight at (e, d). -/
theorem wblk3 (c : Dev nD) (t : Fin cfg0.N) (d e : Fin 1024) :
    (iblk m c 3 t : Vec Ideal S1024x1024 .bf16) (ix2 d e) = m ((c : Thread nD τ).loc main_arg3) (ix2 e d) := by
  unfold iblk
  rw [View.read_apply]
  show V m c main_v3 (((cfg0.win 3).blk t).view.emb (ix2 d e)) = _
  have hv : @Eq (FVec Ideal S1024x1024 .bf16) (V m c main_v3)
      (truncf (F := Ideal) .bf16 (transpose S1024x1024 [1, 0] (m ((c : Thread nD τ).loc main_arg3)) transposes_S1024x1024_S1024x1024_1_0) bitsLt_bf16_f32) := by
    dsimp only [Gen.V, Gen.hostOps0]; after_results
  have he : ((cfg0.win 3).blk t).view.emb (ix2 d e) = ix2 d e := by
    obtain ⟨e0, e1⟩ := idxW t
    funext a; apply Fin.ext
    match a with
    | ⟨0, _⟩ => show win0_3.index t (0 : Fin 2) * 1024 + 1 * d.val = d.val; rw [e0.2.1.1]; omega
    | ⟨1, _⟩ => show win0_3.index t (1 : Fin 2) * 1024 + 1 * e.val = e.val; rw [e0.2.1.2]; omega
  rw [he, hv, truncf_apply, transpose_ix2_apply]

/-- The staged value weight at (d, e) is the value weight at (e, d). -/
theorem wblk5 (c : Dev nD) (t : Fin cfg0.N) (d e : Fin 1024) :
    (iblk m c 5 t : Vec Ideal S1024x1024 .bf16) (ix2 d e) = m ((c : Thread nD τ).loc main_arg5) (ix2 e d) := by
  unfold iblk
  rw [View.read_apply]
  show V m c main_v5 (((cfg0.win 5).blk t).view.emb (ix2 d e)) = _
  have hv : @Eq (FVec Ideal S1024x1024 .bf16) (V m c main_v5)
      (truncf (F := Ideal) .bf16 (transpose S1024x1024 [1, 0] (m ((c : Thread nD τ).loc main_arg5)) transposes_S1024x1024_S1024x1024_1_0) bitsLt_bf16_f32) := by
    dsimp only [Gen.V, Gen.hostOps0]; after_results
  have he : ((cfg0.win 5).blk t).view.emb (ix2 d e) = ix2 d e := by
    obtain ⟨e0, e1⟩ := idxW t
    funext a; apply Fin.ext
    match a with
    | ⟨0, _⟩ => show win0_5.index t (0 : Fin 2) * 1024 + 1 * d.val = d.val; rw [e0.2.2.1]; omega
    | ⟨1, _⟩ => show win0_5.index t (1 : Fin 2) * 1024 + 1 * e.val = e.val; rw [e0.2.2.2]; omega
  rw [he, hv, truncf_apply, transpose_ix2_apply]

/-- The query bias arrives whole. -/
theorem bblk2 (c : Dev nD) (t : Fin cfg0.N) (e : Fin 1024) :
    (iblk m c 2 t : Vec Ideal S1024 .f32) (ix1 e) = m ((c : Thread nD τ).loc main_arg2) (ix1 e) := by
  unfold iblk
  rw [View.read_apply]
  show V m c main_arg2 (((cfg0.win 2).blk t).view.emb (ix1 e)) = _
  have he : ((cfg0.win 2).blk t).view.emb (ix1 e) = ix1 e := by
    obtain ⟨e0, e1⟩ := idxW t
    funext a; apply Fin.ext
    match a with
    | ⟨0, _⟩ => show win0_2.index t (0 : Fin 1) * 1024 + 1 * e.val = e.val; rw [e1.1]; omega
  rw [he, V_main_arg2]

/-- The key bias arrives whole. -/
theorem bblk4 (c : Dev nD) (t : Fin cfg0.N) (e : Fin 1024) :
    (iblk m c 4 t : Vec Ideal S1024 .f32) (ix1 e) = m ((c : Thread nD τ).loc main_arg4) (ix1 e) := by
  unfold iblk
  rw [View.read_apply]
  show V m c main_arg4 (((cfg0.win 4).blk t).view.emb (ix1 e)) = _
  have he : ((cfg0.win 4).blk t).view.emb (ix1 e) = ix1 e := by
    obtain ⟨e0, e1⟩ := idxW t
    funext a; apply Fin.ext
    match a with
    | ⟨0, _⟩ => show win0_4.index t (0 : Fin 1) * 1024 + 1 * e.val = e.val; rw [e1.2.1]; omega
  rw [he, V_main_arg4]

/-- The value bias arrives whole. -/
theorem bblk6 (c : Dev nD) (t : Fin cfg0.N) (e : Fin 1024) :
    (iblk m c 6 t : Vec Ideal S1024 .f32) (ix1 e) = m ((c : Thread nD τ).loc main_arg6) (ix1 e) := by
  unfold iblk
  rw [View.read_apply]
  show V m c main_arg6 (((cfg0.win 6).blk t).view.emb (ix1 e)) = _
  have he : ((cfg0.win 6).blk t).view.emb (ix1 e) = ix1 e := by
    obtain ⟨e0, e1⟩ := idxW t
    funext a; apply Fin.ext
    match a with
    | ⟨0, _⟩ => show win0_6.index t (0 : Fin 1) * 1024 + 1 * e.val = e.val; rw [e1.2.2]; omega
  rw [he, V_main_arg6]

end Cert.KernelIdeal.Blk

end
-- ==== Proof.Invariant.lean ====
/-
  What the kernel carries from grid point to grid point.

  After point `t` (batch `t / 8`, query tile `t % 8`):
    the first result's staging block holds rows `256·(t % 8) + r` of the specification's first result for the batch;
    the text accumulator holds the text sum over the query positions of tiles `0 … t % 8` of the batch;
    the two carried buffers hold the batch's key and value projections.
  A point that starts a batch establishes this from nothing (it projects keys and values and zeroes the
  accumulator); a later point of the batch keeps the projections and adds its own 256 terms to the accumulator.
-/
import proofs.«132548_j70738111365466_2_alg».proof.Proof.Blocks
import proofs.«132548_j70738111365466_2_alg».proof.Proof.Gen.KernelIdeal.Value

set_option maxRecDepth 16384

noncomputable section

open Idealize.ShloMosaic Idealize.ShloMosaic.TcCoe Idealize.SL.Sem Idealize.ShloMosaic.ValueIdx

namespace Cert.KernelIdeal.Inv

open Cert.KernelIdeal Cert.KernelIdeal.Gen Cert.Attn

/-! ## One point, over arbitrary buffers -/

section OnePoint
variable (X : Act) (Wq : Mat) (bq : Bias) (Wk : Mat) (bk : Bias) (Wv : Mat) (bv : Bias) (b : Fin 4)

/-- A batch's projection as the contents of a carried buffer. -/
def projOf (W : Mat) (bias : Bias) : Vec Ideal S2048x1024 .bf16 := fun y => lin X W bias b (y 0) (y 1)

/-- Rows `row r` of the first result as the contents of its staging block. -/
def out1Of (row : Fin 256 → Fin 2048) : Vec Ideal S1x256x1024 .f32 :=
  fun y => vision X Wq bq Wk bk Wv bv b (row (y 1)) (y 2)

/-- The text sum over tiles `0 … n` as the contents of the accumulator. -/
def accOf (n : ℕ) : Vec Ideal S1x2048x1024 .f32 := fun y => Tile.partialText X Wq bq Wk bk b (y 1) (y 2) n

theorem keys_val (W : Mat) (bias : Bias) (x0 : Vec Ideal S1x2048x1024 .f32) (wT : Vec Ideal S1024x1024 .bf16) (β : Vec Ideal S1024 .f32)
    (hx : ∀ j d, x0 (ix3 (0 : Fin 1) j d) = X (ix3 b j d)) (hw : ∀ d e, wT (ix2 d e) = W (ix2 e d))
    (hβ : ∀ e, β (ix1 e) = bias (ix1 e)) : k0_pay4 (F := Ideal) x0 wT β = projOf X b W bias := by
  funext y
  obtain ⟨j, e, rfl⟩ : ∃ (j : Fin 2048) (e : Fin 1024), y = ix2 j e := ⟨y 0, y 1, eq_ix2 y⟩
  exact (Pay.pay4_apply x0 wT β j e).trans (Tile.proj_eq X W bias b x0 wT β hx hw hβ j e)

theorem vals_val (W : Mat) (bias : Bias) (x0 : Vec Ideal S1x2048x1024 .f32) (wT : Vec Ideal S1024x1024 .bf16) (β : Vec Ideal S1024 .f32)
    (hx : ∀ j d, x0 (ix3 (0 : Fin 1) j d) = X (ix3 b j d)) (hw : ∀ d e, wT (ix2 d e) = W (ix2 e d))
    (hβ : ∀ e, β (ix1 e) = bias (ix1 e)) : k0_pay5 (F := Ideal) x0 wT β = projOf X b W bias := by
  funext y
  obtain ⟨j, e, rfl⟩ : ∃ (j : Fin 2048) (e : Fin 1024), y = ix2 j e := ⟨y 0, y 1, eq_ix2 y⟩
  exact (Pay.pay5_apply x0 wT β j e).trans (Tile.proj_eq X W bias b x0 wT β hx hw hβ j e)

variable {X Wq bq Wk bk Wv bv b}
variable {row : Fin 256 → Fin 2048} {v6 : Vec Ideal S1x256x1024 .f32} {wT : Vec Ideal S1024x1024 .bf16} {β : Vec Ideal S1024 .f32}
  {K Vv : Vec Ideal S2048x1024 .bf16}

theorem out1_val (H : Tile.Reads X Wq bq Wk bk Wv bv b row v6 wT β K Vv) :
    k0_pay8 (F := Ideal) v6 wT β K Vv = out1Of X Wq bq Wk bk Wv bv b row := by
  funext y
  obtain ⟨u, r, e, rfl⟩ : ∃ (u : Fin 1) (r : Fin 256) (e : Fin 1024), y = ix3 u r e := ⟨y 0, y 1, y 2, eq_ix3 y⟩
  exact Tile.out1_eq H u r e

theorem acc_first (q : ℕ) (hq : q < 8) (hq0 : q = 0)
    (H : Tile.Reads X Wq bq Wk bk Wv bv b (Tile.rowOf q hq) v6 wT β K Vv) :
    k0_pay1 (F := Ideal) (k0_pay6 v6) (k0_pay7 v6 wT β K) (k0_pay2 (F := Ideal)) = accOf X Wq bq Wk bk b q := by
  subst hq0
  funext y
  obtain ⟨u, j, e, rfl⟩ : ∃ (u : Fin 1) (j : Fin 2048) (e : Fin 1024), y = ix3 u j e := ⟨y 0, y 1, y 2, eq_ix3 y⟩
  refine (Tile.acc_eq H _ u j e).trans ?_
  rw [Pay.pay2_apply]
  exact (Tile.partialText_zero X Wq bq Wk bk b j e).symm

theorem acc_later (q : ℕ) (hq : q < 8) (n : ℕ) (hqn : q = n + 1)
    (H : Tile.Reads X Wq bq Wk bk Wv bv b (Tile.rowOf q hq) v6 wT β K Vv) :
    k0_pay1 (F := Ideal) (k0_pay6 v6) (k0_pay7 v6 wT β K) (accOf X Wq bq Wk bk b n) = accOf X Wq bq Wk bk b q := by
  subst hqn
  funext y
  obtain ⟨u, j, e, rfl⟩ : ∃ (u : Fin 1) (j : Fin 2048) (e : Fin 1024), y = ix3 u j e := ⟨y 0, y 1, y 2, eq_ix3 y⟩
  refine (Tile.acc_eq H _ u j e).trans ?_
  exact (Tile.partialText_succ X Wq bq Wk bk b j e n hq).symm

end OnePoint

/-! ## Every point of the run -/

variable (m : (ℓ : Loc nD τ sig) → Buf (Elt Ideal) ℓ)

/-- The seven argument arrays on core `c`. -/
abbrev aX (c : Dev nD) : Act := m ((c : Thread nD τ).loc main_arg0)
abbrev aWq (c : Dev nD) : Mat := m ((c : Thread nD τ).loc main_arg1)
abbrev abq (c : Dev nD) : Bias := m ((c : Thread nD τ).loc main_arg2)
abbrev aWk (c : Dev nD) : Mat := m ((c : Thread nD τ).loc main_arg3)
abbrev abk (c : Dev nD) : Bias := m ((c : Thread nD τ).loc main_arg4)
abbrev aWv (c : Dev nD) : Mat := m ((c : Thread nD τ).loc main_arg5)
abbrev abv (c : Dev nD) : Bias := m ((c : Thread nD τ).loc main_arg6)

/-- What the first result's block, the accumulator and the two carried buffers hold after point `t`. -/
def O1 (c : Dev nD) (t : Fin cfg0.N) : Vec Ideal S1x256x1024 .f32 := out1Of (aX m c) (aWq m c) (abq m c) (aWk m c) (abk m c) (aWv m c) (abv m c) (Blk.batch t) (Blk.row t)
def Acc (c : Dev nD) (t : Fin cfg0.N) : Vec Ideal S1x2048x1024 .f32 := accOf (aX m c) (aWq m c) (abq m c) (aWk m c) (abk m c) (Blk.batch t) (t.val % 8)
def Kc (c : Dev nD) (t : Fin cfg0.N) : Vec Ideal S2048x1024 .bf16 := projOf (aX m c) (Blk.batch t) (aWk m c) (abk m c)
def Vc (c : Dev nD) (t : Fin cfg0.N) : Vec Ideal S2048x1024 .bf16 := projOf (aX m c) (Blk.batch t) (aWv m c) (abv m c)

/-- The point before. -/
def pred (t : Fin cfg0.N) : Fin cfg0.N := ⟨t.val - 1, Nat.lt_of_le_of_lt (Nat.sub_le _ _) t.isLt⟩

/-- How point `t`'s buffers read the arguments, given keys and values that are the batch's projections. -/
theorem reads (c : Dev nD) (t : Fin cfg0.N) :
    Tile.Reads (aX m c) (aWq m c) (abq m c) (aWk m c) (abk m c) (aWv m c) (abv m c) (Blk.batch t) (Blk.row t) (Found.tile (grid0.coords t) (iblk m c 0 t)) (iblk m c 1 t) (iblk m c 2 t)
      (Kc m c t) (Vc m c t) where
  tile r d := (Blk.tile_apply t (iblk m c 0 t) 0 r d).trans (Blk.xblk m c t 0 (Blk.row t r) d)
  weight d e := Blk.wblk1 m c t d e
  bias e := Blk.bblk2 m c t e
  keys _ _ := rfl
  vals _ _ := rfl

/-- The keys and values a batch's first point projects. -/
theorem keys_first (c : Dev nD) (t : Fin cfg0.N) : k0_pay4 (F := Ideal) (iblk m c 0 t) (iblk m c 3 t) (iblk m c 4 t) = Kc m c t :=
  keys_val (aX m c) (Blk.batch t) (aWk m c) (abk m c) (iblk m c 0 t) (iblk m c 3 t) (iblk m c 4 t)
    (fun j d => Blk.xblk m c t 0 j d) (fun d e => Blk.wblk3 m c t d e) (fun e => Blk.bblk4 m c t e)

theorem vals_first (c : Dev nD) (t : Fin cfg0.N) : k0_pay5 (F := Ideal) (iblk m c 0 t) (iblk m c 5 t) (iblk m c 6 t) = Vc m c t :=
  vals_val (aX m c) (Blk.batch t) (aWv m c) (abv m c) (iblk m c 0 t) (iblk m c 5 t) (iblk m c 6 t)
    (fun j d => Blk.xblk m c t 0 j d) (fun d e => Blk.wblk5 m c t d e) (fun e => Blk.bblk6 m c t e)

/-- A point that starts a batch. -/
theorem caseA (c : Dev nD) (t : Fin cfg0.N) (h0 : t.val % 8 = 0) :
    outsAt0 m c t.val t.isLt = (O1 m c t, Acc m c t, Kc m c t, Vc m c t) := by
  rw [outsAt0_A m c t h0]
  refine congrArg₂ Prod.mk ?_ (congrArg₂ Prod.mk ?_ (congrArg₂ Prod.mk ?_ ?_))
  · refine (Found.first_out1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)).trans ?_
    rw [keys_first m c t, vals_first m c t]
    exact out1_val (reads m c t)
  · refine (Found.first_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)).trans ?_
    rw [keys_first m c t]
    exact acc_first (t.val % 8) (Nat.mod_lt _ (by norm_num)) h0 (reads m c t)
  · exact (Found.first_keys c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)).trans (keys_first m c t)
  · exact (Found.first_vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)).trans (vals_first m c t)

/-- A later point of a batch is in the batch of the point before, one tile on. -/
theorem batch_pred (t : Fin cfg0.N) (h0 : ¬t.val % 8 = 0) : Blk.batch (pred t) = Blk.batch t :=
  Fin.ext (by show (t.val - 1) / 8 = t.val / 8; omega)

theorem caseB (c : Dev nD) (t : Fin cfg0.N) (h0 : ¬t.val % 8 = 0)
    (ih : outsAt0 m c (t.val - 1) (Nat.lt_of_le_of_lt (Nat.sub_le _ _) t.isLt)
      = (O1 m c (pred t), Acc m c (pred t), Kc m c (pred t), Vc m c (pred t))) :
    outsAt0 m c t.val t.isLt = (O1 m c t, Acc m c t, Kc m c t, Vc m c t) := by
  have hK : Kc m c (pred t) = Kc m c t := by unfold Kc; rw [batch_pred t h0]
  have hV : Vc m c (pred t) = Vc m c t := by unfold Vc; rw [batch_pred t h0]
  have hA : Acc m c (pred t) = accOf (aX m c) (aWq m c) (abq m c) (aWk m c) (abk m c) (Blk.batch t) (t.val % 8 - 1) := by
    unfold Acc
    rw [batch_pred t h0]
    exact congrArg _ (by show (t.val - 1) % 8 = t.val % 8 - 1; omega)
  rw [outsAt0_B m c t h0, ih]
  refine congrArg₂ Prod.mk ?_ (congrArg₂ Prod.mk ?_ (congrArg₂ Prod.mk ?_ ?_))
  · refine (Found.later_out1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t)
      (Acc m c (pred t)) (Kc m c (pred t)) (Vc m c (pred t))).trans ?_
    rw [hK, hV]
    exact out1_val (reads m c t)
  · refine (Found.later_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t)
      (Acc m c (pred t)) (Kc m c (pred t)) (Vc m c (pred t))).trans ?_
    rw [hK, hA]
    exact acc_later (t.val % 8) (Nat.mod_lt _ (by norm_num)) (t.val % 8 - 1) (by omega) (reads m c t)
  · exact hK
  · exact hV

/-- After every point the four hold what the summary above says. -/
theorem outsAt_eq (c : Dev nD) : ∀ (n : ℕ) (hn : n < cfg0.N),
    outsAt0 m c n hn = (O1 m c ⟨n, hn⟩, Acc m c ⟨n, hn⟩, Kc m c ⟨n, hn⟩, Vc m c ⟨n, hn⟩)
  | 0, hn => caseA m c ⟨0, hn⟩ rfl
  | n + 1, hn => by
    by_cases h0 : (n + 1) % 8 = 0
    · exact caseA m c ⟨n + 1, hn⟩ h0
    · exact caseB m c ⟨n + 1, hn⟩ h0 (outsAt_eq c n (Nat.lt_of_succ_lt hn))

end Cert.KernelIdeal.Inv

end
-- ==== Proof.Final.lean ====
/-
  The two result arrays after the run.

  Every point writes back its tile of the first result: block (t / 8, t % 8) of the array, which holds rows
  `256·(t % 8) + r` of batch `t / 8` — the specification's first result read through that block. The blocks of
  the 32 points tile the array.
  The text accumulator is written back only after a batch's last tile (t % 8 = 7), when it holds the text sum
  over all eight tiles, that is over all 2048 query positions: the specification's second result for the batch.
  The four batches' blocks tile the array.
-/
import proofs.«132548_j70738111365466_2_alg».proof.Proof.Invariant

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Attn Cert.KernelIdeal.Inv

variable (m : (ℓ : Loc nD τ sig) → Buf (Elt Ideal) ℓ) (ρ : Dev nD → PrngReg)

/-- The first result's window: block (t / 8, t % 8, 0). -/
theorem idx7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)

/-- The second result's window: block (t / 8, 0, 0). -/
theorem idx8 : ∀ t : Fin cfg0.N, win0_8.index t (0 : Fin 3) = t.val / 8 ∧ win0_8.index t (1 : Fin 3) = 0 ∧ win0_8.index t (2 : Fin 3) = 0 :=
  (by decide +kernel : ∀ t : Fin grid0.N, _)

/-- The specification's two results on core `c`. -/
abbrev vis (c : Dev nD) : Act := visionArr (aX m c) (aWq m c) (abq m c) (aWk m c) (abk m c) (aWv m c) (abv m c)
abbrev txt (c : Dev nD) : Act := textArr (aX m c) (aWq m c) (abq m c) (aWk m c) (abk m c)

/-- What point `t` writes back of the first result is its block of the specification's array. -/
theorem flushed7_eq (c : Dev nD) (t : Fin cfg0.N) :
    (dats m 0 c).flushed 7 t = ((cfg0.win 7).blk t).view.read (Elt Ideal) (vis m c) := by
  rw [Value.flushed7, outsAt_eq m c t.val t.isLt]
  funext y
  obtain ⟨e0, e1, e2⟩ := idx7 t
  have h0 : (((cfg0.win 7).blk t).view.emb y) (0 : Fin 3) = Blk.batch t := Fin.ext (by
    show win0_7.index t (0 : Fin 3) * 1 + 1 * (y 0).val = t.val / 8
    have : (y 0).val < 1 := (y 0).isLt
    omega)
  have h1 : (((cfg0.win 7).blk t).view.emb y) (1 : Fin 3) = Blk.row t (y 1) := Fin.ext (by
    show win0_7.index t (1 : Fin 3) * 256 + 1 * (y 1).val = 256 * (t.val % 8) + (y 1).val
    omega)
  have h2 : (((cfg0.win 7).blk t).view.emb y) (2 : Fin 3) = y 2 := Fin.ext (by
    show win0_7.index t (2 : Fin 3) * 1024 + 1 * (y 2).val = (y 2).val
    omega)
  show vision (aX m c) (aWq m c) (abq m c) (aWk m c) (abk m c) (aWv m c) (abv m c) (Blk.batch t) (Blk.row t (y 1)) (y 2)
    = vision (aX m c) (aWq m c) (abq m c) (aWk m c) (abk m c) (aWv m c) (abv m c) ((((cfg0.win 7).blk t).view.emb y) 0) ((((cfg0.win 7).blk t).view.emb y) 1) ((((cfg0.win 7).blk t).view.emb y) 2)
  rw [h0, h1, h2]

/-- An index of the array is in point `t`'s block of the first result iff each coordinate is in the block's range. -/
theorem mem_blk7 (t : Fin cfg0.N) (i : S4x2048x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v6_0).slice (win0_7.rect t)).set ↔ _
  rw [View.set_slice_whole, Rect.mem_set_unit]
  exact Iff.rfl

/-- Every index of the first result is in the block of the point (batch, tile of its row). -/
theorem cover7 (i : S4x2048x1024.Idx) : ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  have hN : cfg0.N = 32 := N_0
  refine ⟨⟨8 * (i 0).val + (i 1).val / 256, by omega⟩, flush0_7 _, ?_⟩
  rw [mem_blk7]
  obtain ⟨e0, e1, e2⟩ := idx7 ⟨8 * (i 0).val + (i 1).val / 256, by omega⟩
  intro a
  match a with
  | ⟨0, _⟩ => show win0_7.index _ (0 : Fin 3) * 1 ≤ (i 0).val ∧ (i 0).val < win0_7.index _ (0 : Fin 3) * 1 + 1; rw [e0]; dsimp only; omega
  | ⟨1, _⟩ => show win0_7.index _ (1 : Fin 3) * 256 ≤ (i 1).val ∧ (i 1).val < win0_7.index _ (1 : Fin 3) * 256 + 256; rw [e1]; dsimp only; omega
  | ⟨2, _⟩ => show win0_7.index _ (2 : Fin 3) * 1024 ≤ (i 2).val ∧ (i 2).val < win0_7.index _ (2 : Fin 3) * 1024 + 1024; rw [e2]; omega

/-- So the first result array ends holding the specification's first result. -/
theorem final7 (c : Dev nD) : (dats m 0 c).arrAt 7 cfg0.N = vis m c :=
  (dats m 0 c).arrAt_eq_of_cover 7 (vis m c) (fun t _ => flushed7_eq m c t) cover7

/-- What a batch's last point writes back of the second result is its block of the specification's array. -/
theorem flushed8_eq (c : Dev nD) (t : Fin cfg0.N) (hf : (cfg0.win 8).flush t = true) :
    (dats m 0 c).flushed 8 t = ((cfg0.win 8).blk t).view.read (Elt Ideal) (txt m c) := by
  have h7 : t.val % 8 = 7 := (flush0_8 t).mp hf
  rw [Value.flushed8, outsAt_eq m c t.val t.isLt]
  funext y
  obtain ⟨e0, e1, e2⟩ := idx8 t
  have h0 : (((cfg0.win 8).blk t).view.emb y) (0 : Fin 3) = Blk.batch t := Fin.ext (by
    show win0_8.index t (0 : Fin 3) * 1 + 1 * (y 0).val = t.val / 8
    have : (y 0).val < 1 := (y 0).isLt
    omega)
  have h1 : (((cfg0.win 8).blk t).view.emb y) (1 : Fin 3) = y 1 := Fin.ext (by
    show win0_8.index t (1 : Fin 3) * 2048 + 1 * (y 1).val = (y 1).val
    omega)
  have h2 : (((cfg0.win 8).blk t).view.emb y) (2 : Fin 3) = y 2 := Fin.ext (by
    show win0_8.index t (2 : Fin 3) * 1024 + 1 * (y 2).val = (y 2).val
    omega)
  show Tile.partialText (aX m c) (aWq m c) (abq m c) (aWk m c) (abk m c) (Blk.batch t) (y 1) (y 2) (t.val % 8)
    = text (aX m c) (aWq m c) (abq m c) (aWk m c) (abk m c) ((((cfg0.win 8).blk t).view.emb y) 0) ((((cfg0.win 8).blk t).view.emb y) 1) ((((cfg0.win 8).blk t).view.emb y) 2)
  rw [h0, h1, h2, h7]
  exact Tile.partialText_last (aX m c) (aWq m c) (abq m c) (aWk m c) (abk m c) (Blk.batch t) (y 1) (y 2)

theorem mem_blk8 (t : Fin cfg0.N) (i : S4x2048x1024.Idx) :
    i ∈ ((cfg0.win 8).blk t).view.set ↔ ∀ a : Fin 3, win0_8.index t a * S1x2048x1024.size a ≤ (i a).val ∧ (i a).val < win0_8.index t a * S1x2048x1024.size a + S1x2048x1024.size a := by
  show i ∈ ((View.whole main_v6_1).slice (win0_8.rect t)).set ↔ _
  rw [View.set_slice_whole, Rect.mem_set_unit]
  exact Iff.rfl

/-- Every index of the second result is in the block its batch's last point writes back. -/
theorem cover8 (i : S4x2048x1024.Idx) : ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1024 := (i 2).isLt
  have hN : cfg0.N = 32 := N_0
  refine ⟨⟨8 * (i 0).val + 7, by omega⟩, (flush0_8 _).mpr (by dsimp only; omega), ?_⟩
  rw [mem_blk8]
  obtain ⟨e0, e1, e2⟩ := idx8 ⟨8 * (i 0).val + 7, by omega⟩
  intro a
  match a with
  | ⟨0, _⟩ => show win0_8.index _ (0 : Fin 3) * 1 ≤ (i 0).val ∧ (i 0).val < win0_8.index _ (0 : Fin 3) * 1 + 1; rw [e0]; dsimp only; omega
  | ⟨1, _⟩ => show win0_8.index _ (1 : Fin 3) * 2048 ≤ (i 1).val ∧ (i 1).val < win0_8.index _ (1 : Fin 3) * 2048 + 2048; rw [e1]; omega
  | ⟨2, _⟩ => show win0_8.index _ (2 : Fin 3) * 1024 ≤ (i 2).val ∧ (i 2).val < win0_8.index _ (2 : Fin 3) * 1024 + 1024; rw [e2]; omega

/-- So the second result array ends holding the specification's second result. -/
theorem final8 (c : Dev nD) : (dats m 0 c).arrAt 8 cfg0.N = txt m c :=
  (dats m 0 c).arrAt_eq_of_cover 8 (txt m c) (flushed8_eq m c) cover8

/-- The kernel's run: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v6_0) = vis m c
      ∧ r.2.mem ((c : Thread nD τ).loc main_v6_1) = txt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.Final

end
-- ==== Proof.RefValue.lean ====
/-
  The reference program's two results, read index by index, are the specification's two arrays.

  Each stage of the reference is read at an index whose coordinates are named: the three linear layers give
  `Cert.Attn.lin`; the contraction of queries against keys times the computed constant 1/√1024 gives
  `Cert.Attn.score`; the fold of the maximum from −∞ over the key axis, followed by one more maximum with −∞,
  gives `Cert.Attn.rowMax`; the exponential of the difference gives `Cert.Attn.expo`; the sum from 0 over the key
  axis and the quotient give `Cert.Attn.attn`; the contraction of the softmax rows against the values is
  `Cert.Attn.vision`, and the contraction of the softmax over the QUERY axis against the input is `Cert.Attn.text`.
-/
import proofs.«132548_j70738111365466_2_alg».proof.Proof.Gen.ReferenceIdeal.Read
import proofs.«132548_j70738111365466_2_alg».proof.Proof.Consts
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn

variable (x0 : (⟨S4x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal))

/-! ## The three linear layers -/

/-- The queries at (b, i, e): the contraction over the feature axis plus the bias at `e`. -/
theorem lin_v3 (b : Fin 4) (i : Fin 2048) (e : Fin 1024) :
    val_main_v3 (F := Ideal) x0 x1 x2 (ix3 b i e) = lin x0 x1 x2 b i e := by
  rw [val_main_v3_apply, val_main_v0_apply, val_main_v2_apply, val_main_v1_apply]
  unfold lin
  have hl : ∀ k : Fin 1024, lidx_main_v0 (ix3 b i e) k = ix3 b i k := fun k =>
    funext fun a => Fin.ext (by match a with | ⟨0, _⟩ => rfl | ⟨1, _⟩ => rfl | ⟨2, _⟩ => rfl)
  have hr : ∀ k : Fin 1024, ridx_main_v0 (ix3 b i e) k = ix2 e k := fun k =>
    funext fun a => Fin.ext (by match a with | ⟨0, _⟩ => rfl | ⟨1, _⟩ => rfl)
  have hb : idx_main_v1 (idx_main_v2 (ix3 b i e)) = ix1 e :=
    funext fun a => Fin.ext (by match a with | ⟨0, _⟩ => rfl)
  rw [hb]
  show (∑ k : Fin 1024, x0 (lidx_main_v0 (ix3 b i e) k) * x1 (ridx_main_v0 (ix3 b i e) k)) + x2 (ix1 e) = _
  refine congrArg (· + x2 (ix1 e)) (Finset.sum_congr rfl fun k _ => ?_)
  rw [hl k, hr k]

/-- The keys at (b, j, e). -/
theorem lin_v7 (b : Fin 4) (i : Fin 2048) (e : Fin 1024) :
    val_main_v7 (F := Ideal) x0 x3 x4 (ix3 b i e) = lin x0 x3 x4 b i e := by
  rw [val_main_v7_apply, val_main_v4_apply, val_main_v6_apply, val_main_v5_apply]
  unfold lin
  have hl : ∀ k : Fin 1024, lidx_main_v4 (ix3 b i e) k = ix3 b i k := fun k =>
    funext fun a => Fin.ext (by match a with | ⟨0, _⟩ => rfl | ⟨1, _⟩ => rfl | ⟨2, _⟩ => rfl)
  have hr : ∀ k : Fin 1024, ridx_main_v4 (ix3 b i e) k = ix2 e k := fun k =>
    funext fun a => Fin.ext (by match a with | ⟨0, _⟩ => rfl | ⟨1, _⟩ => rfl)
  have hb : idx_main_v5 (idx_main_v6 (ix3 b i e)) = ix1 e :=
    funext fun a => Fin.ext (by match a with | ⟨0, _⟩ => rfl)
  rw [hb]
  show (∑ k : Fin 1024, x0 (lidx_main_v4 (ix3 b i e) k) * x3 (ridx_main_v4 (ix3 b i e) k)) + x4 (ix1 e) = _
  refine congrArg (· + x4 (ix1 e)) (Finset.sum_congr rfl fun k _ => ?_)
  rw [hl k, hr k]

/-- The values at (b, j, e). -/
theorem lin_v11 (b : Fin 4) (i : Fin 2048) (e : Fin 1024) :
    val_main_v11 (F := Ideal) x0 x5 x6 (ix3 b i e) = lin x0 x5 x6 b i e := by
  rw [val_main_v11_apply, val_main_v8_apply, val_main_v10_apply, val_main_v9_apply]
  unfold lin
  have hl : ∀ k : Fin 1024, lidx_main_v8 (ix3 b i e) k = ix3 b i k := fun k =>
    funext fun a => Fin.ext (by match a with | ⟨0, _⟩ => rfl | ⟨1, _⟩ => rfl | ⟨2, _⟩ => rfl)
  have hr : ∀ k : Fin 1024, ridx_main_v8 (ix3 b i e) k = ix2 e k := fun k =>
    funext fun a => Fin.ext (by match a with | ⟨0, _⟩ => rfl | ⟨1, _⟩ => rfl)
  have hb : idx_main_v9 (idx_main_v10 (ix3 b i e)) = ix1 e :=
    funext fun a => Fin.ext (by match a with | ⟨0, _⟩ => rfl)
  rw [hb]
  show (∑ k : Fin 1024, x0 (lidx_main_v8 (ix3 b i e) k) * x5 (ridx_main_v8 (ix3 b i e) k)) + x6 (ix1 e) = _
  refine congrArg (· + x6 (ix1 e)) (Finset.sum_congr rfl fun k _ => ?_)
  rw [hl k, hr k]

/-! ## The scale -/

/-- The broadcast constant is `1 / √1024`, computed from the two literals: the specification's scale. -/
theorem scale_v15 (i : S4x2048x2048.Idx) : val_main_v15 (F := Ideal) i = scale := by
  rw [val_main_v15_apply, val_main_v13_apply, val_main_cst_0_apply, val_main_v12_apply, val_main_cst_apply]
  simp only [Ideal.hostDivf_def, Ideal.hostUnary_sqrt_def, Ideal.ofBits_def]
  exact one_div_sqrt

/-! ## The scaled scores -/

/-- The scaled score of query position `i` against key position `j`. -/
theorem score_v16 (b : Fin 4) (i j : Fin 2048) :
    val_main_v16 (F := Ideal) x0 x1 x2 x3 x4 (ix3 b i j) = score x0 x1 x2 x3 x4 b i j := by
  rw [val_main_v16_apply, val_main_v14_apply, scale_v15]
  unfold score
  have hl : ∀ k : Fin 1024, lidx_main_v14 (ix3 b i j) k = ix3 b i k := fun k =>
    funext fun a => Fin.ext (by match a with | ⟨0, _⟩ => rfl | ⟨1, _⟩ => rfl | ⟨2, _⟩ => rfl)
  have hr : ∀ k : Fin 1024, ridx_main_v14 (ix3 b i j) k = ix3 b j k := fun k =>
    funext fun a => Fin.ext (by match a with | ⟨0, _⟩ => rfl | ⟨1, _⟩ => rfl | ⟨2, _⟩ => rfl)
  show (∑ k : Fin 1024, val_main_v3 (F := Ideal) x0 x1 x2 (lidx_main_v14 (ix3 b i j) k)
      * val_main_v7 (F := Ideal) x0 x3 x4 (ridx_main_v14 (ix3 b i j) k)) * scale = _
  refine congrArg (· * scale) (Finset.sum_congr rfl fun k _ => ?_)
  rw [hl k, hr k, lin_v3, lin_v7]

/-! ## The row maximum -/

/-- The shapes' one-axis reduction fact, in the form the fold over the dropped axis is stated with. -/
theorem hred : S4x2048x2048.Reduces [2] S4x2048 := by decide

/-- The reduced index (b, i) with key position `k` put back on the dropped axis is (b, i, k). -/
theorem lift_ix3 (b : Fin 4) (i : Fin 2048) (k : Fin (S4x2048x2048.size 2)) :
    hred.lift (ix2 b i) k = ix3 b i (⟨k.val, k.isLt⟩ : Fin 2048) := by
  funext c; apply Fin.ext
  fin_cases c <;> rfl

/-- The reduce with a maximum body from −∞ over the key axis is the fold of the maximum over the row of scores. -/
theorem rowMax_v17 (b : Fin 4) (i : Fin 2048) :
    val_main_v17 (F := Ideal) x0 x1 x2 x3 x4 (ix2 b i) = rowMax x0 x1 x2 x3 x4 b i := by
  unfold val_main_v17
  refine (Host.reduce_eq_fold_single (α := Ideal .f32) (s := S4x2048x2048) (t := S4x2048) (a := (2 : Fin 3)) (u := S_)
    (FloatOps.maximumf (F := Ideal) (φ := .f32)) (val_main_v16 (F := Ideal) x0 x1 x2 x3 x4) (val_main_cst_1 (F := Ideal))
    reducesTo_S4x2048x2048_S4x2048_d2 hred h_S_ (ix2 b i)).trans ?_
  unfold rowMax
  have hf : (val_main_v16 (F := Ideal) x0 x1 x2 x3 x4 ∘ hred.lift (ix2 b i))
      = fun j : Fin 2048 => score x0 x1 x2 x3 x4 b i j :=
    funext fun k => (congrArg (val_main_v16 (F := Ideal) x0 x1 x2 x3 x4) (lift_ix3 b i k)).trans (score_v16 x0 x1 x2 x3 x4 b i _)
  exact congrArg (fun f => Finset.fold max (Ideal.ofBits .f32 0xFF800000#32) f (Finset.univ : Finset (Fin 2048))) hf

/-- A maximum with the fold's own initial value changes nothing. -/
theorem max_fold_max {ι : Type} (s : Finset ι) (a : EReal) (f : ι → EReal) : max a (s.fold max a f) = s.fold max a f :=
  max_eq_right ((Finset.le_fold_max a).mpr (Or.inl le_rfl))

/-- The maximum of the broadcast −∞ with the reduced row is the row maximum. -/
theorem rowMax_v19 (b : Fin 4) (i : Fin 2048) :
    val_main_v19 (F := Ideal) x0 x1 x2 x3 x4 (ix2 b i) = rowMax x0 x1 x2 x3 x4 b i := by
  rw [val_main_v19_apply, val_main_v18_apply, val_main_cst_2_apply, rowMax_v17]
  simp only [Ideal.maximumf_def, Ideal.ofBits_def]
  unfold rowMax
  exact max_fold_max _ _ _

/-! ## The softmax -/

/-- The exponential of a score less its row maximum. -/
theorem expo_v23 (b : Fin 4) (i j : Fin 2048) :
    val_main_v23 (F := Ideal) x0 x1 x2 x3 x4 (ix3 b i j) = expo x0 x1 x2 x3 x4 b i j := by
  rw [val_main_v23_apply, val_main_v22_apply, val_main_v21_apply, val_main_v20_apply]
  have hb : idx_main_v20 (idx_main_v21 (ix3 b i j)) = ix2 b i :=
    funext fun a => Fin.ext (by match a with | ⟨0, _⟩ => rfl | ⟨1, _⟩ => rfl)
  rw [hb, score_v16, rowMax_v19]
  simp only [Ideal.hostUnary_exp_def, Ideal.subf_def]
  rfl

/-- The sum from 0 of a row of exponentials. -/
theorem sum_v24 (b : Fin 4) (i : Fin 2048) :
    val_main_v24 (F := Ideal) x0 x1 x2 x3 x4 (ix2 b i) = ∑ j : Fin 2048, expo x0 x1 x2 x3 x4 b i j := by
  rw [val_main_v24_apply, val_main_cst_3_apply]
  simp only [Ideal.ofBits_def]
  rw [Ideal.ofBits_zero_f32, zero_add]
  refine Finset.sum_congr rfl fun k _ => ?_
  have hk : idx_main_v24 (ix2 b i) k = ix3 b i k :=
    funext fun a => Fin.ext (by match a with | ⟨0, _⟩ => rfl | ⟨1, _⟩ => rfl | ⟨2, _⟩ => rfl)
  rw [hk, expo_v23]

/-- The softmax weight of key position `j` for query position `i`. -/
theorem attn_v27 (b : Fin 4) (i j : Fin 2048) :
    val_main_v27 (F := Ideal) x0 x1 x2 x3 x4 (ix3 b i j) = attn x0 x1 x2 x3 x4 b i j := by
  rw [val_main_v27_apply, val_main_v26_apply, val_main_v25_apply]
  have hb : idx_main_v25 (idx_main_v26 (ix3 b i j)) = ix2 b i :=
    funext fun a => Fin.ext (by match a with | ⟨0, _⟩ => rfl | ⟨1, _⟩ => rfl)
  rw [hb, expo_v23, sum_v24]
  simp only [Ideal.hostDivf_def]
  rfl

/-! ## The two results -/

/-- The first result is the specification's first array: the softmax rows times the values. -/
theorem vision_eq (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    Cert.ReferenceIdeal.Read.val_main_v28 (F := Ideal) x0 x1 x2 x3 x4 x5 x6 = Cert.Attn.visionArr x0 x1 x2 x3 x4 x5 x6 := by
  funext idx
  obtain ⟨b, i, e, rfl⟩ : ∃ (b : Fin 4) (i : Fin 2048) (e : Fin 1024), idx = ix3 b i e := ⟨idx 0, idx 1, idx 2, eq_ix3 idx⟩
  rw [val_main_v28_apply]
  show _ = vision x0 x1 x2 x3 x4 x5 x6 b i e
  unfold vision
  refine Finset.sum_congr rfl fun k _ => ?_
  have hl : lidx_main_v28 (ix3 b i e) k = ix3 b i k :=
    funext fun a => Fin.ext (by match a with | ⟨0, _⟩ => rfl | ⟨1, _⟩ => rfl | ⟨2, _⟩ => rfl)
  have hr : ridx_main_v28 (ix3 b i e) k = ix3 b k e :=
    funext fun a => Fin.ext (by match a with | ⟨0, _⟩ => rfl | ⟨1, _⟩ => rfl | ⟨2, _⟩ => rfl)
  rw [hl, hr, attn_v27, lin_v11]

/-- The second result is the specification's second array: the softmax, contracted over the query axis, times the input. -/
theorem text_eq (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) :
    Cert.ReferenceIdeal.Read.val_main_v29 (F := Ideal) x0 x1 x2 x3 x4 = Cert.Attn.textArr x0 x1 x2 x3 x4 := by
  funext idx
  obtain ⟨b, j, e, rfl⟩ : ∃ (b : Fin 4) (j : Fin 2048) (e : Fin 1024), idx = ix3 b j e := ⟨idx 0, idx 1, idx 2, eq_ix3 idx⟩
  rw [val_main_v29_apply]
  show _ = text x0 x1 x2 x3 x4 b j e
  unfold text
  refine Finset.sum_congr rfl fun k _ => ?_
  have hl : lidx_main_v29 (ix3 b j e) k = ix3 b k j :=
    funext fun a => Fin.ext (by match a with | ⟨0, _⟩ => rfl | ⟨1, _⟩ => rfl | ⟨2, _⟩ => rfl)
  have hr : ridx_main_v29 (ix3 b j e) k = ix3 b k e :=
    funext fun a => Fin.ext (by match a with | ⟨0, _⟩ => rfl | ⟨1, _⟩ => rfl | ⟨2, _⟩ => rfl)
  rw [hl, hr, attn_v27]

end Cert.ReferenceIdeal.RefValue

end
-- ==== Proof.lean ====
/-
  Cross attention of an activation array against itself, fused into one kernel, equals its plain reference on
  the extended reals.

  Both programs compute, per batch, queries, keys and values `x·Wᵀ + β`, the scores `q·kᵀ` scaled by
  `1/√1024`, a softmax over the key axis, the softmax times the values (first result) and the transposed softmax
  times the input (second result). They differ in three ways, none of which changes the value:
    the kernel scales the queries by the literal 2⁻⁵ before the score product, the reference scales the scores
    by `1/√1024` computed from two literals — `√1024 = 32`, so both are `1/32`, and a nonnegative real factor moves
    across a finite sum of extended reals whatever the summands are (Proof/ScaleLaw.lean, Proof/Consts.lean);
    the kernel works on 256-row query tiles over a 4 × 8 grid, carrying the batch's keys and values between the
    tiles of a batch, and sums the second result's query axis 256 positions at a time into an accumulator that is
    written back after the batch's last tile (Proof/Invariant.lean, by induction on the grid point;
    Proof/Final.lean: the written-back blocks tile both result arrays);
    the kernel changes float formats around its matrix products, which is the identity on the extended reals.
  The specification both sides are compared with is Proof/Spec.lean; the reference is it by Proof/RefValue.lean.
  The precondition (finite inputs) is not needed: no step cancels or distributes over an infinite value.
-/
import proofs.«132548_j70738111365466_2_alg».proof.Defs
import proofs.«132548_j70738111365466_2_alg».proof.Proof.Gen.Kernel
import proofs.«132548_j70738111365466_2_alg».proof.Proof.Gen.Kernel.Skeleton
import proofs.«132548_j70738111365466_2_alg».proof.Proof.Gen.Kernel.Launch
import proofs.«132548_j70738111365466_2_alg».proof.Proof.Gen.Kernel.Points
import proofs.«132548_j70738111365466_2_alg».proof.Proof.Gen.Kernel.Frame
import proofs.«132548_j70738111365466_2_alg».proof.Proof.Gen.KernelIdeal
import proofs.«132548_j70738111365466_2_alg».proof.Proof.Gen.KernelIdeal.Skeleton
import proofs.«132548_j70738111365466_2_alg».proof.Proof.Gen.KernelIdeal.Launch
import proofs.«132548_j70738111365466_2_alg».proof.Proof.Gen.KernelIdeal.Points
import proofs.«132548_j70738111365466_2_alg».proof.Proof.Gen.KernelIdeal.Frame
import proofs.«132548_j70738111365466_2_alg».proof.Proof.Gen.KernelIdeal.Value
import proofs.«132548_j70738111365466_2_alg».proof.Proof.Gen.ReferenceIdeal
import proofs.«132548_j70738111365466_2_alg».proof.Proof.Gen.ReferenceIdeal.Run
import proofs.«132548_j70738111365466_2_alg».proof.Proof.Gen.ReferenceIdeal.Read
import proofs.«132548_j70738111365466_2_alg».proof.Proof.Gen.Pre_finite_inputs
import proofs.«132548_j70738111365466_2_alg».proof.Proof.Final
import proofs.«132548_j70738111365466_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten to read the kernel on the extended reals. -/
theorem preserves : Cert.preserves_Kernel_KernelIdeal := trivial

/-- From arguments that agree, the kernel ends with both result arrays at the specification's two functions of its
    arguments, and so does the reference. -/
theorem algebraic : Cert.algebraic_KernelIdeal_ReferenceIdeal := by
  intro m ρ m' ρ' _ hagree
  refine ⟨fun c => Cert.KernelIdeal.Final.vis m c, fun c => Cert.KernelIdeal.Final.txt m c,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v28_eq, Cert.ReferenceIdeal.RefValue.vision_eq,
      (hagree c).1, (hagree c).2.1, (hagree c).2.2.1, (hagree c).2.2.2.1, (hagree c).2.2.2.2.1,
      (hagree c).2.2.2.2.2.1, (hagree c).2.2.2.2.2.2]
  · rw [(h c).2.1, Cert.ReferenceIdeal.Read.val_main_v29_eq, Cert.ReferenceIdeal.RefValue.text_eq,
      (hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
